-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x512 : Shape := ⟨3, ![2, 4096, 512]⟩
abbrev S512x512 : Shape := ⟨2, ![512, 512]⟩
abbrev S_ : Shape := ⟨0, ![]⟩

class Facts : Prop where
  bcast_S_S2x4096x512 : S_.BroadcastsInDim S2x4096x512 (![] : Fin 0 → Fin S2x4096x512.rank)
  reducesTo_S2x4096x512_S_d0_1_2 : S2x4096x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn_part1 {F : FTy → Type} [FloatOps F] (main_arg4 : FVec F S512x512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  main_v23

def fn {F : FTy → Type} [FloatOps F] (main_arg0 : FVec F S2x4096x512 .f32) (main_arg1 : FVec F S512x512 .f32) (main_arg2 : FVec F S512x512 .f32) (main_arg3 : FVec F S512x512 .f32) (main_arg4 : FVec F S512x512 .f32) : IVec S_ 1 :=
  let main_v0 : FVec F S2x4096x512 .f32 := Host.absf main_arg0
  let main_cst : FVec F S_ .f32 := constant S_ .f32 0x7F800000#32
  let main_v1 : FVec F S2x4096x512 .f32 := broadcastInDim S2x4096x512 ![] bcast_S_S2x4096x512 main_cst
  let main_v2 : IVec S2x4096x512 1 := cmpf .olt main_v0 main_v1
  let main_c : IVec S_ 1 := constantI S_ 1 1#1
  let main_v3 : IVec S_ 1 := (fun x v => Host.reduce IntOp.andi x v reducesTo_S2x4096x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_v13 main_v16
-- ==== Kernel.lean ====
abbrev S2x4096x512 : Shape := ⟨3, ![2, 4096, 512]⟩
abbrev S512x512 : Shape := ⟨2, ![512, 512]⟩
abbrev S1x512x512 : Shape := ⟨3, ![1, 512, 512]⟩
abbrev S1x256x512 : Shape := ⟨3, ![1, 256, 512]⟩
abbrev S1x4096x512 : Shape := ⟨3, ![1, 4096, 512]⟩
abbrev S256x512 : Shape := ⟨2, ![256, 512]⟩
abbrev S1x256x64 : Shape := ⟨3, ![1, 256, 64]⟩
abbrev S256x64 : Shape := ⟨2, ![256, 64]⟩
abbrev S1x4096x64 : Shape := ⟨3, ![1, 4096, 64]⟩
abbrev S4096x64 : Shape := ⟨2, ![4096, 64]⟩
abbrev S256x4096 : Shape := ⟨2, ![256, 4096]⟩
abbrev S256 : Shape := ⟨1, ![256]⟩
abbrev S256x1 : Shape := ⟨2, ![256, 1]⟩

abbrev nBuf : Space → Nat
  | .hbm => 17
  | .vmem => 23
  | .smem => 0
  | _ => 0

abbrev bufTy : (tb : Table) → Fin (tcTables nBuf tb) → BufTy
  | .hbm, ⟨0, _⟩ => ⟨S2x4096x512, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S512x512, .f32⟩
  | .hbm, ⟨6, _⟩ => ⟨S512x512, .bf16⟩
  | .hbm, ⟨7, _⟩ => ⟨S512x512, .f32⟩
  | .hbm, ⟨8, _⟩ => ⟨S512x512, .bf16⟩
  | .hbm, ⟨9, _⟩ => ⟨S512x512, .f32⟩
  | .hbm, ⟨10, _⟩ => ⟨S512x512, .bf16⟩
  | .hbm, ⟨11, _⟩ => ⟨S512x512, .f32⟩
  | .hbm, ⟨12, _⟩ => ⟨S512x512, .bf16⟩
  | .hbm, ⟨13, _⟩ => ⟨S2x4096x512, .bf16⟩
  | .hbm, ⟨14, _⟩ => ⟨S2x4096x512, .bf16⟩
  | .hbm, ⟨15, _⟩ => ⟨S2x4096x512, .bf16⟩
  | .hbm, ⟨16, _⟩ => ⟨S2x4096x512, .f32⟩
  | .local _ .vmem, ⟨0, _⟩ => ⟨S1x512x512, .f32⟩
  | .local _ .vmem, ⟨1, _⟩ => ⟨S1x512x512, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x512, .bf16⟩
  | .local _ .vmem, ⟨9, _⟩ => ⟨S1x512x512, .bf16⟩
  | .local _ .vmem, ⟨10, _⟩ => ⟨S1x512x512, .bf16⟩
  | .local _ .vmem, ⟨11, _⟩ => ⟨S1x256x512, .bf16⟩
  | .local _ .vmem, ⟨12, _⟩ => ⟨S1x256x512, .bf16⟩
  | .local _ .vmem, ⟨13, _⟩ => ⟨S1x4096x512, .bf16⟩
  | .local _ .vmem, ⟨14, _⟩ => ⟨S1x4096x512, .bf16⟩
  | .local _ .vmem, ⟨15, _⟩ => ⟨S1x4096x512, .bf16⟩
  | .local _ .vmem, ⟨16, _⟩ => ⟨S1x4096x512, .bf16⟩
  | .local _ .vmem, ⟨17, _⟩ => ⟨S512x512, .bf16⟩
  | .local _ .vmem, ⟨18, _⟩ => ⟨S1x256x512, .f32⟩
  | .local _ .vmem, ⟨19, _⟩ => ⟨S1x256x512, .f32⟩
  | .local _ .vmem, ⟨20, _⟩ => ⟨S1x256x512, .f32⟩
  | .local _ .vmem, ⟨21, _⟩ => ⟨S1x256x512, .f32⟩
  | .local _ .vmem, ⟨22, _⟩ => ⟨S256x512, .f32⟩
  | _, _ => ⟨S2x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_scratch0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem4_1 : DmaSem sig := 19
abbrev cc1_sem5_0 : DmaSem sig := 20
abbrev cc1_sem5_1 : DmaSem sig := 21

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![2, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4096x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x4096x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S512x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x256x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x256x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  transposes_S512x512_S512x512_1_0 : S512x512.Transposes [1, 0] S512x512
  bitsLt_bf16_f32 : FTy.bits .bf16 < FTy.bits .f32
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S512x512_S1x512x512 : S512x512.ShapeCasts S1x512x512
  packedbf16_S1x512x512_S1x512x512_0_0_0 : (Rect.unit (s := S1x512x512) ![0, 0, 0] S1x512x512.size inb_S1x512x512_S1x512x512_0_0_0).PackedRows (EltTy.packing .bf16)
  inb_S1x256x512_S1x256x64_0_0_0 : ∀ a, (![0, 0, 0] : Fin 3 → Nat) a + S1x256x64.size a ≤ S1x256x512.size a
  h_S1x256x64 : 0 < S1x256x64.numel
  shapeCasts_S1x256x64_S256x64 : S1x256x64.ShapeCasts S256x64
  inb_S1x4096x512_S1x4096x64_0_0_0 : ∀ a, (![0, 0, 0] : Fin 3 → Nat) a + S1x4096x64.size a ≤ S1x4096x512.size a
  h_S1x4096x64 : 0 < S1x4096x64.numel
  shapeCasts_S1x4096x64_S4096x64 : S1x4096x64.ShapeCasts S4096x64
  reduces_S256x4096_S256 : S256x4096.Reduces [1] S256
  shapeCasts_S256_S256x1 : S256.ShapeCasts S256x1
  broadcasts_S256x1_S256x4096 : S256x1.Broadcasts S256x4096
  inb_S256x512_S256x64_0_0 : ∀ a, (![0, 0] : Fin 2 → Nat) a + S256x64.size a ≤ S256x512.size a
  h_S256x64 : 0 < S256x64.numel
  shapeCasts_S256x64_S256x64 : S256x64.ShapeCasts S256x64
  inb_S1x256x512_S1x256x64_0_0_64 : ∀ a, (![0, 0, 64] : Fin 3 → Nat) a + S1x256x64.size a ≤ S1x256x512.size a
  inb_S1x4096x512_S1x4096x64_0_0_64 : ∀ a, (![0, 0, 64] : Fin 3 → Nat) a + S1x4096x64.size a ≤ S1x4096x512.size a
  inb_S256x512_S256x64_0_64 : ∀ a, (![0, 64] : Fin 2 → Nat) a + S256x64.size a ≤ S256x512.size a
  inb_S1x256x512_S1x256x64_0_0_128 : ∀ a, (![0, 0, 128] : Fin 3 → Nat) a + S1x256x64.size a ≤ S1x256x512.size a
  inb_S1x4096x512_S1x4096x64_0_0_128 : ∀ a, (![0, 0, 128] : Fin 3 → Nat) a + S1x4096x64.size a ≤ S1x4096x512.size a
  inb_S256x512_S256x64_0_128 : ∀ a, (![0, 128] : Fin 2 → Nat) a + S256x64.size a ≤ S256x512.size a
  inb_S1x256x512_S1x256x64_0_0_192 : ∀ a, (![0, 0, 192] : Fin 3 → Nat) a + S1x256x64.size a ≤ S1x256x512.size a
  inb_S1x4096x512_S1x4096x64_0_0_192 : ∀ a, (![0, 0, 192] : Fin 3 → Nat) a + S1x4096x64.size a ≤ S1x4096x512.size a
  inb_S256x512_S256x64_0_192 : ∀ a, (![0, 192] : Fin 2 → Nat) a + S256x64.size a ≤ S256x512.size a
  inb_S1x256x512_S1x256x64_0_0_256 : ∀ a, (![0, 0, 256] : Fin 3 → Nat) a + S1x256x64.size a ≤ S1x256x512.size a
  inb_S1x4096x512_S1x4096x64_0_0_256 : ∀ a, (![0, 0, 256] : Fin 3 → Nat) a + S1x4096x64.size a ≤ S1x4096x512.size a
  inb_S256x512_S256x64_0_256 : ∀ a, (![0, 256] : Fin 2 → Nat) a + S256x64.size a ≤ S256x512.size a
  inb_S1x256x512_S1x256x64_0_0_320 : ∀ a, (![0, 0, 320] : Fin 3 → Nat) a + S1x256x64.size a ≤ S1x256x512.size a
  inb_S1x4096x512_S1x4096x64_0_0_320 : ∀ a, (![0, 0, 320] : Fin 3 → Nat) a + S1x4096x64.size a ≤ S1x4096x512.size a
  inb_S256x512_S256x64_0_320 : ∀ a, (![0, 320] : Fin 2 → Nat) a + S256x64.size a ≤ S256x512.size a
  inb_S1x256x512_S1x256x64_0_0_384 : ∀ a, (![0, 0, 384] : Fin 3 → Nat) a + S1x256x64.size a ≤ S1x256x512.size a
  inb_S1x4096x512_S1x4096x64_0_0_384 : ∀ a, (![0, 0, 384] : Fin 3 → Nat) a + S1x4096x64.size a ≤ S1x4096x512.size a
  inb_S256x512_S256x64_0_384 : ∀ a, (![0, 384] : Fin 2 → Nat) a + S256x64.size a ≤ S256x512.size a
  inb_S1x256x512_S1x256x64_0_0_448 : ∀ a, (![0, 0, 448] : Fin 3 → Nat) a + S1x256x64.size a ≤ S1x256x512.size a
  inb_S1x4096x512_S1x4096x64_0_0_448 : ∀ a, (![0, 0, 448] : Fin 3 → Nat) a + S1x4096x64.size a ≤ S1x4096x512.size a
  inb_S256x512_S256x64_0_448 : ∀ a, (![0, 448] : Fin 2 → Nat) a + S256x64.size a ≤ S256x512.size a
  inb_S256x512_S256x512_0_0 : ∀ a, (![0, 0] : Fin 2 → Nat) a + S256x512.size a ≤ S256x512.size a
  h_S256x512 : 0 < S256x512.numel
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  shapeCasts_S256x512_S1x256x512 : S256x512.ShapeCasts S1x256x512
  dot_S512x512_S512x512_S512x512_1_0_0_1_n_n_wf : DotDims.WF S512x512 S512x512 S512x512 [1] [0] [0] [1] [] []
  dot_S256x64_S4096x64_S256x4096_1_1_0_0_n_n_wf : DotDims.WF S256x64 S4096x64 S256x4096 [1] [1] [0] [0] [] []
  dot_S256x4096_S4096x64_S256x64_1_0_0_1_n_n_wf : DotDims.WF S256x4096 S4096x64 S256x64 [1] [0] [0] [1] [] []
  dot_S256x512_S512x512_S256x512_1_0_0_1_n_n_wf : DotDims.WF S256x512 S512x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S2x4096x512.size a
  hwx0_0 : ∀ i : grid0.Coords, EltTy.bits .f32 = 32 ∨ (Rect.block (s := S2x4096x512) S1x512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x512.size a ≤ S2x4096x512.size a
  hwx0_4 : ∀ i : grid0.Coords, EltTy.bits .bf16 = 32 ∨ (Rect.block (s := S2x4096x512) S1x512x512.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x512.size a ≤ S2x4096x512.size a
  hwx0_5 : ∀ i : grid0.Coords, EltTy.bits .bf16 = 32 ∨ (Rect.block (s := S2x4096x512) S1x512x512.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x512.size a ≤ S2x4096x512.size a
  hwx0_6 : ∀ i : grid0.Coords, EltTy.bits .bf16 = 32 ∨ (Rect.block (s := S2x4096x512) S1x512x512.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x512.size a ≤ S2x4096x512.size a
  hwx1_0 : ∀ i : grid1.Coords, EltTy.bits .bf16 = 32 ∨ (Rect.block (s := S2x4096x512) S1x256x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4096x512.size a ≤ S2x4096x512.size a
  hwx1_1 : ∀ i : grid1.Coords, EltTy.bits .bf16 = 32 ∨ (Rect.block (s := S2x4096x512) S1x4096x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x4096x512.size a ≤ S2x4096x512.size a
  hwx1_2 : ∀ i : grid1.Coords, EltTy.bits .bf16 = 32 ∨ (Rect.block (s := S2x4096x512) S1x4096x512.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S512x512.size a
  hwx1_3 : ∀ i : grid1.Coords, EltTy.bits .bf16 = 32 ∨ (Rect.block (s := S512x512) S512x512.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x256x512.size a ≤ S2x4096x512.size a
  hwx1_4 : ∀ i : grid1.Coords, EltTy.bits .f32 = 32 ∨ (Rect.block (s := S2x4096x512) S1x256x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x256x512.size a ≤ S2x4096x512.size a
  hwx1_5 : ∀ i : grid1.Coords, EltTy.bits .f32 = 32 ∨ (Rect.block (s := S2x4096x512) S1x256x512.size (cc1_transform_5 i) (hinb1_5 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S256x64_S4096x64_S256x4096_1_1_0_0_n_n : DotDims S256x64 S4096x64 S256x4096 where
  lhsContracting := [1]
  rhsContracting := [1]
  lhsNonContracting := [0]
  rhsNonContracting := [0]
  lhsBatch := []
  rhsBatch := []
  wf := dot_S256x64_S4096x64_S256x4096_1_1_0_0_n_n_wf
def dot_S256x4096_S4096x64_S256x64_1_0_0_1_n_n : DotDims S256x4096 S4096x64 S256x64 where
  lhsContracting := [1]
  rhsContracting := [0]
  lhsNonContracting := [0]
  rhsNonContracting := [1]
  lhsBatch := []
  rhsBatch := []
  wf := dot_S256x4096_S4096x64_S256x64_1_0_0_1_n_n_wf
def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf

abbrev win0_0 : Pipeline.Window sig grid0 :=
  Pipeline.Window.ofSpec (Memref.whole main_arg0) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8_0) S1x512x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8_1) S1x512x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8_2) S1x512x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v8_0) S1x256x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8_1) S1x4096x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8_2) S1x4096x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S512x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg0) S1x256x512.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v9) S1x256x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S2x4096x512 : Shape := ⟨3, ![2, 4096, 512]⟩
abbrev S512x512 : Shape := ⟨2, ![512, 512]⟩
abbrev S2x4096x8x64 : Shape := ⟨4, ![2, 4096, 8, 64]⟩
abbrev S2x8x4096x64 : Shape := ⟨4, ![2, 8, 4096, 64]⟩
abbrev S2x8x4096x4096 : Shape := ⟨4, ![2, 8, 4096, 4096]⟩
abbrev S_ : Shape := ⟨0, ![]⟩
abbrev S2x8x4096 : Shape := ⟨3, ![2, 8, 4096]⟩
abbrev S2x8x4096x1 : Shape := ⟨4, ![2, 8, 4096, 1]⟩

abbrev nBuf : Space → Nat
  | .hbm => 37
  | .vmem => 0
  | .smem => 0
  | _ => 0

abbrev bufTy : (tb : Table) → Fin (tcTables nBuf tb) → BufTy
  | .hbm, ⟨0, _⟩ => ⟨S2x4096x512, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S2x4096x512, .f32⟩
  | .hbm, ⟨6, _⟩ => ⟨S2x4096x8x64, .f32⟩
  | .hbm, ⟨7, _⟩ => ⟨S2x8x4096x64, .f32⟩
  | .hbm, ⟨8, _⟩ => ⟨S2x4096x512, .f32⟩
  | .hbm, ⟨9, _⟩ => ⟨S2x4096x8x64, .f32⟩
  | .hbm, ⟨10, _⟩ => ⟨S2x8x4096x64, .f32⟩
  | .hbm, ⟨11, _⟩ => ⟨S2x4096x512, .f32⟩
  | .hbm, ⟨12, _⟩ => ⟨S2x4096x8x64, .f32⟩
  | .hbm, ⟨13, _⟩ => ⟨S2x8x4096x64, .f32⟩
  | .hbm, ⟨14, _⟩ => ⟨S2x8x4096x4096, .f32⟩
  | .hbm, ⟨15, _⟩ => ⟨S_, .f32⟩
  | .hbm, ⟨16, _⟩ => ⟨S2x8x4096x4096, .f32⟩
  | .hbm, ⟨17, _⟩ => ⟨S2x8x4096x4096, .f32⟩
  | .hbm, ⟨18, _⟩ => ⟨S_, .f32⟩
  | .hbm, ⟨19, _⟩ => ⟨S2x8x4096, .f32⟩
  | .hbm, ⟨20, _⟩ => ⟨S_, .f32⟩
  | .hbm, ⟨21, _⟩ => ⟨S2x8x4096, .f32⟩
  | .hbm, ⟨22, _⟩ => ⟨S2x8x4096, .f32⟩
  | .hbm, ⟨23, _⟩ => ⟨S2x8x4096x1, .f32⟩
  | .hbm, ⟨24, _⟩ => ⟨S2x8x4096x4096, .f32⟩
  | .hbm, ⟨25, _⟩ => ⟨S2x8x4096x4096, .f32⟩
  | .hbm, ⟨26, _⟩ => ⟨S2x8x4096x4096, .f32⟩
  | .hbm, ⟨27, _⟩ => ⟨S_, .f32⟩
  | .hbm, ⟨28, _⟩ => ⟨S2x8x4096, .f32⟩
  | .hbm, ⟨29, _⟩ => ⟨S2x8x4096x1, .f32⟩
  | .hbm, ⟨30, _⟩ => ⟨S2x8x4096x4096, .f32⟩
  | .hbm, ⟨31, _⟩ => ⟨S2x8x4096x4096, .f32⟩
  | .hbm, ⟨32, _⟩ => ⟨S2x8x4096x64, .f32⟩
  | .hbm, ⟨33, _⟩ => ⟨S2x4096x8x64, .f32⟩
  | .hbm, ⟨34, _⟩ => ⟨S2x4096x512, .f32⟩
  | .hbm, ⟨35, _⟩ => ⟨S2x4096x512, .f32⟩
  | .hbm, ⟨36, _⟩ => ⟨S2x4096x512, .f32⟩
  | _, _ => ⟨S2x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]

class Facts₀ : Prop where
  shapeCasts_S2x4096x512_S2x4096x8x64 : S2x4096x512.ShapeCasts S2x4096x8x64
  transposes_S2x4096x8x64_S2x8x4096x64_0_2_1_3 : S2x4096x8x64.Transposes [0, 2, 1, 3] S2x8x4096x64
  bcast_S_S2x8x4096x4096 : S_.BroadcastsInDim S2x8x4096x4096 (![] : Fin 0 → Fin S2x8x4096x4096.rank)
  reducesTo_S2x8x4096x4096_S2x8x4096_d3 : S2x8x4096x4096.ReducesTo [3] S2x8x4096
  h_S_ : 0 < S_.numel
  bcast_S_S2x8x4096 : S_.BroadcastsInDim S2x8x4096 (![] : Fin 0 → Fin S2x8x4096.rank)
  bcast_S2x8x4096_S2x8x4096x1_0_1_2 : S2x8x4096.BroadcastsInDim S2x8x4096x1 (![0, 1, 2] : Fin 3 → Fin S2x8x4096x1.rank)
  bcast_S2x8x4096x1_S2x8x4096x4096_0_1_2_3 : S2x8x4096x1.BroadcastsInDim S2x8x4096x4096 (![0, 1, 2, 3] : Fin 4 → Fin S2x8x4096x4096.rank)
  transposes_S2x8x4096x64_S2x4096x8x64_0_2_1_3 : S2x8x4096x64.Transposes [0, 2, 1, 3] S2x4096x8x64
  shapeCasts_S2x4096x8x64_S2x4096x512 : S2x4096x8x64.ShapeCasts S2x4096x512
  dot_S2x4096x512_S512x512_S2x4096x512_2_1_01_0_n_n_wf : DotDims.WF S2x4096x512 S512x512 S2x4096x512 [2] [1] [0, 1] [0] [] []
  dot_S2x8x4096x64_S2x8x4096x64_S2x8x4096x4096_3_3_2_2_01_01_wf : DotDims.WF S2x8x4096x64 S2x8x4096x64 S2x8x4096x4096 [3] [3] [2] [2] [0, 1] [0, 1]
  dot_S2x8x4096x4096_S2x8x4096x64_S2x8x4096x64_3_2_2_3_01_01_wf : DotDims.WF S2x8x4096x4096 S2x8x4096x64 S2x8x4096x64 [3] [2] [2] [3] [0, 1] [0, 1]

variable [Facts₀]

def dot_S2x4096x512_S512x512_S2x4096x512_2_1_01_0_n_n : DotDims S2x4096x512 S512x512 S2x4096x512 where
  lhsContracting := [2]
  rhsContracting := [1]
  lhsNonContracting := [0, 1]
  rhsNonContracting := [0]
  lhsBatch := []
  rhsBatch := []
  wf := dot_S2x4096x512_S512x512_S2x4096x512_2_1_01_0_n_n_wf
def dot_S2x8x4096x64_S2x8x4096x64_S2x8x4096x4096_3_3_2_2_01_01 : DotDims S2x8x4096x64 S2x8x4096x64 S2x8x4096x4096 where
  lhsContracting := [3]
  rhsContracting := [3]
  lhsNonContracting := [2]
  rhsNonContracting := [2]
  lhsBatch := [0, 1]
  rhsBatch := [0, 1]
  wf := dot_S2x8x4096x64_S2x8x4096x64_S2x8x4096x4096_3_3_2_2_01_01_wf
def dot_S2x8x4096x4096_S2x8x4096x64_S2x8x4096x64_3_2_2_3_01_01 : DotDims S2x8x4096x4096 S2x8x4096x64 S2x8x4096x64 where
  lhsContracting := [3]
  rhsContracting := [2]
  lhsNonContracting := [2]
  rhsNonContracting := [3]
  lhsBatch := [0, 1]
  rhsBatch := [0, 1]
  wf := dot_S2x8x4096x4096_S2x8x4096x64_S2x8x4096x64_3_2_2_3_01_01_wf

class Facts : Prop extends Facts₀ where

variable [Facts]
-- ==== Proof.KernelRun.lean ====
/-
  The idealized kernel program's run with its result array NAMED.

  The program is a stretch of host operations (each weight matrix transposed) followed by two kernel launches. The
  buffer contents at the three boundaries are a fold from the launch memory: after the host stretch, after the first
  launch (its three output arrays at what its grid points wrote back, every other buffer untouched) and after the
  second launch (likewise for its one output array). Every weakly fair execution terminates without a fault, and at the
  end every buffer that outlives the launches holds the last boundary's contents: in particular the result array is what
  the second launch's grid points wrote back, and the five argument arrays are as launched.
-/
import proofs.«151363_j47270410060360_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The second launch's output window is the result array. -/
theorem result_is_window5 : Pipeline.arrRef spec1 5 = main_v9 := rfl

/-- At the last boundary the result array holds what the second launch's grid points wrote back. -/
theorem result_at_exit (c : Dev nD) :
    W3 m ρ c (Proc.devRef .tc main_v9) = (dat1 (V2 m ρ) c).arrAt 5 cfg1.N :=
  W3_arr m ρ c 5

set_option backward.isDefEq.respectTransparency.types false in
/-- Every weakly fair execution of the program terminates, nothing faulting; the result array ends at the last
    boundary's contents and the argument arrays end as launched. -/
theorem run : θ_run defs (onTc (τ := τ) (main (F := F))) ⟨m, fun _ => 0, ρ⟩ (fun r => ∀ c : Dev nD,
      r.2.mem ((c.tc : Thread nD τ).loc main_v9) = W3 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v9 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)

end Cert.KernelIdeal.RunValue

end
-- ==== Proof.Spec.lean ====
/-
  Multi-head softmax attention followed by an output projection and a residual connection, written as one function of
  the five argument arrays, index by index, on the extended reals.

  The activations `x` have shape batch × position × feature = 2 × 4096 × 512; each weight matrix is 512 × 512, rows
  indexed by the output feature. The 512 features split into 8 heads of 64 lanes: feature `64·h + d` is lane `d` of
  head `h`. With `Q = x·Wqᵀ`, `K = x·Wkᵀ`, `V = x·Wvᵀ`, head `h` of batch `b` scores position `n` against
  position `j` by `s = (∑_d Q[b,n,64h+d] · K[b,j,64h+d]) / 8`, turns each row of scores into weights
  `exp(s − max_j s) / ∑_j exp(s − max_j s)`, and outputs the weighted sum of the rows of `V`; the heads' outputs,
  side by side in the 512 lanes, are multiplied by `Woᵀ` and `x` is added.

  Nothing here depends on either program: both are shown to compute `out`.
-/
import Idealize.ShloMosaic.PureOps.Ideal
import Idealize.ShloMosaic.Lib.ValueIdx

noncomputable section

open scoped BigOperators
open Idealize.ShloMosaic Idealize.ShloMosaic.ValueIdx

namespace Cert.Attn

/-- The activations' shape: batch × position × feature. -/
abbrev SX : Shape := ⟨3, ![2, 4096, 512]⟩
/-- A weight matrix's shape: output feature × input feature. -/
abbrev SW : Shape := ⟨2, ![512, 512]⟩

/-- An array of activations read by its three coordinates. -/
abbrev Act : Type := Fin 2 → Fin 4096 → Fin 512 → EReal

/-- Feature `64·h + d`: lane `d` of head `h`. -/
def lane (h : Fin 8) (d : Fin 64) : Fin 512 := ⟨64 * h.val + d.val, by omega⟩

/-- The head a feature belongs to, and its lane there. -/
def headOf (e : Fin 512) : Fin 8 := ⟨e.val / 64, by omega⟩
def laneOf (e : Fin 512) : Fin 64 := ⟨e.val % 64, by omega⟩

theorem lane_headOf_laneOf (e : Fin 512) : lane (headOf e) (laneOf e) = e :=
  Fin.ext (by simp only [lane, headOf, laneOf]; omega)
theorem headOf_lane (h : Fin 8) (d : Fin 64) : headOf (lane h d) = h :=
  Fin.ext (by simp only [lane, headOf]; omega)
theorem laneOf_lane (h : Fin 8) (d : Fin 64) : laneOf (lane h d) = d :=
  Fin.ext (by simp only [lane, laneOf]; omega)

/-- A linear projection of the activations: `proj x W b n e = ∑_c x[b,n,c] · W[e,c]`. -/
def proj (x : SX.Idx → EReal) (W : SW.Idx → EReal) : Act := fun b n e =>
  ∑ c : Fin 512, x (ix3 b n c) * W (ix2 e c)

/-- The scale `1/8 = 64^(-1/2)`, as the f32 word both programs carry. -/
def scale : EReal := Ideal.ofBits .f32 0x3E000000#32
/-- The value a row maximum starts from: the f32 word of `-∞`. -/
def floor : EReal := Ideal.ofBits .f32 0xFF800000#32

/-- Head `h`'s score of position `n` against position `j`. -/
def score (q k : Act) (b : Fin 2) (h : Fin 8) (n j : Fin 4096) : EReal :=
  (∑ d : Fin 64, q b n (lane h d) * k b j (lane h d)) * scale

/-- The largest score in row `n`. -/
def rowMax (q k : Act) (b : Fin 2) (h : Fin 8) (n : Fin 4096) : EReal :=
  (Finset.univ : Finset (Fin 4096)).fold max floor (fun j => score q k b h n j)

/-- The unnormalised weight of position `j` in row `n`. -/
def weight (q k : Act) (b : Fin 2) (h : Fin 8) (n j : Fin 4096) : EReal :=
  Ideal.exp (score q k b h n j - rowMax q k b h n)

/-- Row `n`'s normaliser. -/
def denom (q k : Act) (b : Fin 2) (h : Fin 8) (n : Fin 4096) : EReal :=
  ∑ j : Fin 4096, weight q k b h n j

/-- Head `h`'s output at position `n`, lane `d`. -/
def headOut (q k v : Act) (b : Fin 2) (h : Fin 8) (n : Fin 4096) (d : Fin 64) : EReal :=
  ∑ j : Fin 4096, Ideal.div (weight q k b h n j) (denom q k b h n) * v b j (lane h d)

/-- The heads' outputs side by side in the 512 lanes. -/
def merged (q k v : Act) : Act := fun b n e => headOut q k v b (headOf e) n (laneOf e)

/-- The result at batch `b`, position `n`, feature `c`, from the three projected arrays. -/
def outAt (q k v : Act) (x : SX.Idx → EReal) (Wo : SW.Idx → EReal) (b : Fin 2) (n : Fin 4096) (c : Fin 512) : EReal :=
  (∑ e : Fin 512, merged q k v b n e * Wo (ix2 c e)) + x (ix3 b n c)

/-- The whole result array. -/
def out (x : SX.Idx → EReal) (Wq Wk Wv Wo : SW.Idx → EReal) : SX.Idx → EReal := fun i =>
  outAt (proj x Wq) (proj x Wk) (proj x Wv) x Wo (i 0) (i 1) (i 2)

end Cert.Attn

end
-- ==== Proof.LibMatmulSum.lean ====
/-
  A matrix product with ONE contracted axis, read at an output index as a sum over that axis's positions.

  At the ideal instance a `tpu.matmul` into the zero accumulator, and the host's `dot_general`, are at every
  output index the sum over the contraction index of the products of the two operands' entries. When exactly one axis is
  contracted, the contraction index is one number `k < K`; if at the output index `j` the left operand is read at
  `L k` and the right one at `R k`, the entry is `∑ k : Fin K, lhs (L k) * rhs (R k)`. The two index facts are
  the only thing a caller supplies; they hold for any layout of the contracted and free axes.
-/
import Idealize.ShloMosaic.PureOps.Ideal.Laws
import Idealize.ShloMosaic.Lib.ValueIdx

noncomputable section

namespace Idealize.ShloMosaic.MatmulSum

open Idealize.ShloMosaic Idealize.ShloMosaic.ValueIdx

variable {sl sr so : Shape} {φ₁ φ₂ : FTy}

/-- A `tpu.matmul` into the zero splat with one contracted axis of extent `K`: at `j` it is the sum over `k < K` of the
    left operand at `L k` times the right operand at `R k`, where `L k` and `R k` are the operand indices the
    dimension numbers assign to output index `j` and contraction position `k`. -/
theorem matmul_zero_apply_single (D : DotDims sl sr so) (prec : Option ContractPrecision) (K : Nat)
    (hr : D.contr.rank = 1) (hs : D.contr.size ⟨0, by omega⟩ = K)
    (lhs : FVec Ideal sl φ₁) (rhs : FVec Ideal sr φ₂) (j : so.Idx) (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    FloatOps.matmul D prec lhs rhs (constant so .f32 0x00000000#32) j = ∑ k : Fin K, lhs (L k) * rhs (R k) := by
  rw [Ideal.matmul_constant_zero_apply, ← Equiv.sum_comp (contrEquiv1 D K hr hs).symm]
  exact Finset.sum_congr rfl fun k _ => by rw [hL k, hR k]

/-- The host's `dot_general` with one contracted axis of extent `K`, read the same way. -/
theorem dotGeneral_apply_single (D : DotDims sl sr so) (prec : Option ContractPrecision) (sched : HostSchedule) (K : Nat)
    (hr : D.contr.rank = 1) (hs : D.contr.size ⟨0, by omega⟩ = K)
    (lhs : FVec Ideal sl φ₁) (rhs : FVec Ideal sr φ₂) (j : so.Idx) (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    FloatOps.dotGeneral D prec sched lhs rhs j = ∑ k : Fin K, lhs (L k) * rhs (R k) := by
  rw [Ideal.dotGeneral_apply, ← Equiv.sum_comp (contrEquiv1 D K hr hs).symm]
  exact Finset.sum_congr rfl fun k _ => by rw [hL k, hR k]

end Idealize.ShloMosaic.MatmulSum

end
-- ==== Proof.LibPlainMatmul.lean ====
/-
  The plain matrix product, M×K by K×N, read at an output entry.

  For the dimension numbers that contract the left operand's second axis with the right operand's first one and have no
  batch axes, the left operand is read at (p, l) and the right one at (l, q) when the output index is (p, q) and the
  contraction position is l. Hence, at the ideal instance, a matrix product into the zero accumulator and the host's
  product are at (p, q) the sum over l < K of lhs (p, l) * rhs (l, q), for every M, K, N and operand formats.
-/
import Idealize.ShloMosaic.PureOps.Ideal.Laws
import Idealize.ShloMosaic.Lib.ValueIdx
import proofs.«151363_j47270410060360_2_alg».proof.Proof.LibMatmulSum

noncomputable section

namespace Idealize.ShloMosaic.PlainMatmul

open Idealize.ShloMosaic Idealize.ShloMosaic.ValueIdx

variable (M K N : Nat)

/-- On its first axis (a free axis) the left operand's index is the output index's first coordinate. -/
theorem plain_lhs_0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- On its second axis (the contracted one) the left operand's index is the contraction position. -/
theorem plain_lhs_1 (i : (⟨2, ![M, N]⟩ : Shape).Idx) (c : (DotDims.plain M K N).contr.Idx) :
    ((DotDims.plain M K N).lhsIdx i c 1).val = (c ⟨0, Nat.one_pos⟩).val :=
  (DotDims.plain M K N).lhsIdx_val_of_single rfl i c

/-- On its first axis (the contracted one) the right operand's index is the contraction position. -/
theorem plain_rhs_0 (i : (⟨2, ![M, N]⟩ : Shape).Idx) (c : (DotDims.plain M K N).contr.Idx) :
    ((DotDims.plain M K N).rhsIdx i c 0).val = (c ⟨0, Nat.one_pos⟩).val :=
  (DotDims.plain M K N).rhsIdx_val_of_single rfl i c

/-- On its second axis (a free axis) the right operand's index is the output index's second coordinate. -/
theorem plain_rhs_1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at output index (p, q) and contraction position l is (p, l). -/
theorem plain_lhsIdx (p : Fin M) (q : Fin N) (l : Fin K) :
    (DotDims.plain M K N).lhsIdx (ix2 p q) ((contrEquiv1 (DotDims.plain M K N) K rfl rfl).symm l) = ix2 p l :=
  funext fun a => Fin.ext (by
    match a with
    | ⟨0, _⟩ => exact plain_lhs_0 M K N _ _
    | ⟨1, _⟩ => exact (plain_lhs_1 M K N _ _).trans (contrEquiv1_symm_val (DotDims.plain M K N) K rfl rfl l))

/-- The right operand's index at output index (p, q) and contraction position l is (l, q). -/
theorem plain_rhsIdx (p : Fin M) (q : Fin N) (l : Fin K) :
    (DotDims.plain M K N).rhsIdx (ix2 p q) ((contrEquiv1 (DotDims.plain M K N) K rfl rfl).symm l) = ix2 l q :=
  funext fun a => Fin.ext (by
    match a with
    | ⟨0, _⟩ => exact (plain_rhs_0 M K N _ _).trans (contrEquiv1_symm_val (DotDims.plain M K N) K rfl rfl l)
    | ⟨1, _⟩ => exact plain_rhs_1 M K N _ _)

/-- A matrix product M×K by K×N into the zero accumulator is, at (p, q), the sum over l of lhs (p, l) * rhs (l, q). -/
theorem plain_matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ l : Fin K, lhs (ix2 p l) * rhs (ix2 l q) :=
  MatmulSum.matmul_zero_apply_single (DotDims.plain M K N) prec K rfl rfl lhs rhs (ix2 p q) (fun l => ix2 p l) (fun l => ix2 l q)
    (plain_lhsIdx M K N p q) (plain_rhsIdx M K N p q)

/-- The host's product M×K by K×N is, at (p, q), the sum over l of lhs (p, l) * rhs (l, q). -/
theorem plain_dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ l : Fin K, lhs (ix2 p l) * rhs (ix2 l q) :=
  MatmulSum.dotGeneral_apply_single (DotDims.plain M K N) prec sched K rfl rfl lhs rhs (ix2 p q) (fun l => ix2 p l) (fun l => ix2 l q)
    (plain_lhsIdx M K N p q) (plain_rhsIdx M K N p q)

end Idealize.ShloMosaic.PlainMatmul

end
-- ==== Proof.EntryValue.lean ====
/-
  What the attention kernel finds in its five input arrays when it starts.

  Before it, the host transposes each of the four 512 × 512 weight matrices (and rounds it to bf16, which is the identity
  on the extended reals), and a first kernel computes the three projections. That kernel runs over a 2 × 8 grid: the
  point (b, p) takes rows 512·p … 512·p + 511 of batch b of the activations x, multiplies this 512 × 512 block by each
  transposed weight matrix, and stores the three products as rows 512·p … 512·p + 511 of batch b of the arrays Q, K and V.
  Entry (r, e) of such a product is ∑_k x[b, 512·p + r, k] · Wᵀ[k, e] = ∑_k x[b, 512·p + r, k] · W[e, k], which is the
  projection `proj x W` at (b, 512·p + r, e); the sixteen row blocks tile each array (row n of batch b belongs to the
  point (b, n / 512)), so each array ends holding the whole projection. The transposed output weights and the activations
  are not written by the first kernel and reach the second one as the host left them.
-/
import proofs.«151363_j47270410060360_2_alg».proof.Proof.Gen.KernelIdeal.Frame
import proofs.«151363_j47270410060360_2_alg».proof.Proof.Spec
import proofs.«151363_j47270410060360_2_alg».proof.Proof.LibPlainMatmul
import Idealize.ShloMosaic.Lib.Pipeline.Value
import Idealize.ShloMosaic.Lib.ValueLayout
import Idealize.ShloMosaic.Lib.ValueIdx
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.EntryValue

open Cert.KernelIdeal Cert.KernelIdeal.Gen

/-! ## One block of a projection -/

/-- The block a grid point stores for one projection: entry (r, e) is the sum over the 512 input features k of
    the activation block's entry (r, k) times the transposed weight's entry (k, e). Rounding to bf16 is the identity
    on the extended reals, and the two casts only add or drop the unit batch axis. -/
theorem block_apply (x0 : Vec Ideal S1x512x512 .f32) (w0 : Vec Ideal S512x512 .bf16) (u : Fin 1) (r e : Fin 512) :
    (k0_pay2 x0 w0 : S1x512x512.Idx → EReal) (ix3 u r e) = ∑ k : Fin 512, x0 (ix3 (0 : Fin 1) r k) * w0 (ix2 k e) := by
  unfold k0_pay2 k0_pay1
  refine (shapeCast_ab_1ab_apply _ _ u r e).trans ?_
  refine (PlainMatmul.plain_matmul_zero_apply 512 512 512 none _ _ r e).trans ?_
  refine Finset.sum_congr rfl fun k _ => ?_
  congr 1
  · exact shapeCast_1ab_ab_apply _ _ r k
  · rw [shapeCast_self]

/-- The three projections' blocks are the same function of the activation block and the weight block. -/
theorem block3_eq : @k0_pay3 Ideal _ = @k0_pay2 Ideal _ := rfl
theorem block4_eq : @k0_pay4 Ideal _ = @k0_pay2 Ideal _ := rfl

/-! ## The arrays the first kernel is launched on -/

variable (m : (ℓ : Loc nD τ sig) → Buf (Elt Ideal) ℓ) (ρ : Dev nD → PrngReg) (c : Dev nD)

/-- The activations and the four weight matrices, as launched. -/
abbrev argX : Cert.Attn.SX.Idx → EReal := m ((c : Thread nD τ).loc main_arg0)
abbrev argWq : Cert.Attn.SW.Idx → EReal := m ((c : Thread nD τ).loc main_arg1)
abbrev argWk : Cert.Attn.SW.Idx → EReal := m ((c : Thread nD τ).loc main_arg2)
abbrev argWv : Cert.Attn.SW.Idx → EReal := m ((c : Thread nD τ).loc main_arg3)
abbrev argWo : Cert.Attn.SW.Idx → EReal := m ((c : Thread nD τ).loc main_arg4)

/-- No host operation writes the activations. -/
theorem host_x : (V1 m ρ c main_arg0 : S2x4096x512.Idx → EReal) = argX m c := by
  show StableHlo.after hostOps0 (W0 m ρ c) (Proc.devRef .tc main_arg0) = _
  after_results

/-- Each weight matrix reaches the kernels transposed (and rounded, which changes nothing on the extended reals):
    entry (k, e) of the staged matrix is entry (e, k) of the argument. -/
theorem host_wq (k e : Fin 512) : (V1 m ρ c main_v1 : S512x512.Idx → EReal) (ix2 k e) = argWq m c (ix2 e k) := by
  have h : (V1 m ρ c main_v1 : S512x512.Idx → EReal)
      = truncf (F := Ideal) .bf16 (transpose S512x512 [1, 0] (argWq m c) transposes_S512x512_S512x512_1_0) bitsLt_bf16_f32 := by
    show StableHlo.after hostOps0 (W0 m ρ c) (Proc.devRef .tc main_v1) = _
    after_results
  rw [h]
  exact transpose_ix2_apply (argWq m c) _ k e
theorem host_wk (k e : Fin 512) : (V1 m ρ c main_v3 : S512x512.Idx → EReal) (ix2 k e) = argWk m c (ix2 e k) := by
  have h : (V1 m ρ c main_v3 : S512x512.Idx → EReal)
      = truncf (F := Ideal) .bf16 (transpose S512x512 [1, 0] (argWk m c) transposes_S512x512_S512x512_1_0) bitsLt_bf16_f32 := by
    show StableHlo.after hostOps0 (W0 m ρ c) (Proc.devRef .tc main_v3) = _
    after_results
  rw [h]
  exact transpose_ix2_apply (argWk m c) _ k e
theorem host_wv (k e : Fin 512) : (V1 m ρ c main_v5 : S512x512.Idx → EReal) (ix2 k e) = argWv m c (ix2 e k) := by
  have h : (V1 m ρ c main_v5 : S512x512.Idx → EReal)
      = truncf (F := Ideal) .bf16 (transpose S512x512 [1, 0] (argWv m c) transposes_S512x512_S512x512_1_0) bitsLt_bf16_f32 := by
    show StableHlo.after hostOps0 (W0 m ρ c) (Proc.devRef .tc main_v5) = _
    after_results
  rw [h]
  exact transpose_ix2_apply (argWv m c) _ k e
theorem host_wo (k e : Fin 512) : (V1 m ρ c main_v7 : S512x512.Idx → EReal) (ix2 k e) = argWo m c (ix2 e k) := by
  have h : (V1 m ρ c main_v7 : S512x512.Idx → EReal)
      = truncf (F := Ideal) .bf16 (transpose S512x512 [1, 0] (argWo m c) transposes_S512x512_S512x512_1_0) bitsLt_bf16_f32 := by
    show StableHlo.after hostOps0 (W0 m ρ c) (Proc.devRef .tc main_v7) = _
    after_results
  rw [h]
  exact transpose_ix2_apply (argWo m c) _ k e

/-! ## From the blocks to the arrays -/

theorem hz3 : (![0, 0, 0] : Fin 3 → Nat) = fun _ => 0 := funext fun a => by fin_cases a <;> rfl
theorem hz2 : (![0, 0] : Fin 2 → Nat) = fun _ => 0 := funext fun a => by fin_cases a <;> rfl

/-- The block index maps over the 2 × 8 grid: every output window and the activations' window sit at block
    (batch, row block, 0) of the point, and the weight windows never move. -/
theorem idx_facts : ∀ t : Fin cfg0.N,
    win0_4.index t (0 : Fin 3) < 2 ∧ win0_4.index t (1 : Fin 3) < 8 ∧ win0_4.index t (2 : Fin 3) = 0
    ∧ win0_0.index t (0 : Fin 3) = win0_4.index t (0 : Fin 3) ∧ win0_0.index t (1 : Fin 3) = win0_4.index t (1 : Fin 3)
    ∧ win0_0.index t (2 : Fin 3) = 0
    ∧ win0_5.index t (0 : Fin 3) = win0_4.index t (0 : Fin 3) ∧ win0_5.index t (1 : Fin 3) = win0_4.index t (1 : Fin 3)
    ∧ win0_5.index t (2 : Fin 3) = 0
    ∧ win0_6.index t (0 : Fin 3) = win0_4.index t (0 : Fin 3) ∧ win0_6.index t (1 : Fin 3) = win0_4.index t (1 : Fin 3)
    ∧ win0_6.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- Every (batch, row block) is some point's. -/
theorem idx_onto : ∀ (q0 : Fin 2) (q1 : Fin 8), ∃ t : Fin cfg0.N, win0_4.index t = ![q0.val, q1.val, 0] :=
  (by decide +kernel : ∀ (q0 : Fin 2) (q1 : Fin 8), ∃ t : Fin grid0.N, win0_4.index t = ![q0.val, q1.val, 0])

/-- A projection as a whole array. -/
abbrev projArr (X : Cert.Attn.SX.Idx → EReal) (W : Cert.Attn.SW.Idx → EReal) : S2x4096x512.Idx → EReal :=
  fun i => Cert.Attn.proj X W (i 0) (i 1) (i 2)

theorem projArr_apply (X : Cert.Attn.SX.Idx → EReal) (W : Cert.Attn.SW.Idx → EReal) (i : S2x4096x512.Idx)
    (b : Fin 2) (n : Fin 4096) (e : Fin 512) (h0 : (i 0).val = b.val) (h1 : (i 1).val = n.val) (h2 : (i 2).val = e.val) :
    projArr X W i = Cert.Attn.proj X W b n e := by
  obtain rfl : i = ix3 b n e := funext fun a => Fin.ext (by
    match a with
    | ⟨0, _⟩ => exact h0
    | ⟨1, _⟩ => exact h1
    | ⟨2, _⟩ => exact h2)
  rfl

/-- A stored block's entry, once its two operand blocks are known to be rows of batch b of the activations and the
    transposed weight: the projection at that row. -/
theorem block_entry (X : Cert.Attn.SX.Idx → EReal) (W : Cert.Attn.SW.Idx → EReal)
    (x0 : Vec Ideal S1x512x512 .f32) (w0 : Vec Ideal S512x512 .bf16)
    (b : Fin 2) (n : Fin 4096) (e : Fin 512) (u : Fin 1) (r : Fin 512)
    (hx : ∀ k : Fin 512, x0 (ix3 (0 : Fin 1) r k) = X (ix3 b n k))
    (hw : ∀ k : Fin 512, w0 (ix2 k e) = W (ix2 e k)) :
    (k0_pay2 x0 w0 : S1x512x512.Idx → EReal) (ix3 u r e) = Cert.Attn.proj X W b n e := by
  rw [block_apply]
  exact Finset.sum_congr rfl fun k _ => by rw [hx k, hw k]

/-- The activations' block at a point: 512 rows of one batch. -/
theorem xblock_apply (t : Fin cfg0.N) (r k : Fin 512) (i : S2x4096x512.Idx)
    (h0 : (i 0).val = win0_0.index t (0 : Fin 3))
    (h1 : (i 1).val = win0_0.index t (1 : Fin 3) * 512 + r.val)
    (h2 : (i 2).val = k.val) :
    (iblk0 (V1 m ρ) c 0 t : Vec Ideal S1x512x512 .f32) (ix3 (0 : Fin 1) r k) = argX m c i := by
  have hi : win0_0.index t (2 : Fin 3) = 0 := (idx_facts t).2.2.2.2.2.1
  unfold iblk0
  rw [View.read_apply]
  show (V1 m ρ c main_arg0 : S2x4096x512.Idx → EReal) _ = _
  rw [host_x]
  congr 1
  funext a
  apply Fin.ext
  match a with
  | ⟨0, _⟩ => show win0_0.index t (0 : Fin 3) * 1 + 1 * 0 = (i 0).val; omega
  | ⟨1, _⟩ => show win0_0.index t (1 : Fin 3) * 512 + 1 * r.val = (i 1).val; omega
  | ⟨2, _⟩ => show win0_0.index t (2 : Fin 3) * 512 + 1 * k.val = (i 2).val; omega

/-- Each weight window's one block is the whole staged (transposed) matrix. -/
theorem wqblock_apply (t : Fin cfg0.N) (k e : Fin 512) :
    (iblk0 (V1 m ρ) c 1 t : Vec Ideal S512x512 .bf16) (ix2 k e) = argWq m c (ix2 e k) := by
  have hi : win0_1.index t (0 : Fin 2) = 0 ∧ win0_1.index t (1 : Fin 2) = 0 := by
    obtain ⟨-, -, -, -, -, -, -, -, -, -, -, -, q0, q1, k0, k1, v0, v1⟩ := idx_facts t
    exact ⟨q0, q1⟩
  unfold iblk0
  rw [View.read_apply]
  show (V1 m ρ c main_v1 : S512x512.Idx → EReal) _ = _
  refine Eq.trans (congrArg _ ?_) (host_wq m ρ c k e)
  funext a
  apply Fin.ext
  match a with
  | ⟨0, _⟩ => show win0_1.index t (0 : Fin 2) * 512 + 1 * k.val = k.val; omega
  | ⟨1, _⟩ => show win0_1.index t (1 : Fin 2) * 512 + 1 * e.val = e.val; omega
theorem wkblock_apply (t : Fin cfg0.N) (k e : Fin 512) :
    (iblk0 (V1 m ρ) c 2 t : Vec Ideal S512x512 .bf16) (ix2 k e) = argWk m c (ix2 e k) := by
  have hi : win0_2.index t (0 : Fin 2) = 0 ∧ win0_2.index t (1 : Fin 2) = 0 := by
    obtain ⟨-, -, -, -, -, -, -, -, -, -, -, -, q0, q1, k0, k1, v0, v1⟩ := idx_facts t
    exact ⟨k0, k1⟩
  unfold iblk0
  rw [View.read_apply]
  show (V1 m ρ c main_v3 : S512x512.Idx → EReal) _ = _
  refine Eq.trans (congrArg _ ?_) (host_wk m ρ c k e)
  funext a
  apply Fin.ext
  match a with
  | ⟨0, _⟩ => show win0_2.index t (0 : Fin 2) * 512 + 1 * k.val = k.val; omega
  | ⟨1, _⟩ => show win0_2.index t (1 : Fin 2) * 512 + 1 * e.val = e.val; omega
theorem wvblock_apply (t : Fin cfg0.N) (k e : Fin 512) :
    (iblk0 (V1 m ρ) c 3 t : Vec Ideal S512x512 .bf16) (ix2 k e) = argWv m c (ix2 e k) := by
  have hi : win0_3.index t (0 : Fin 2) = 0 ∧ win0_3.index t (1 : Fin 2) = 0 := by
    obtain ⟨-, -, -, -, -, -, -, -, -, -, -, -, q0, q1, k0, k1, v0, v1⟩ := idx_facts t
    exact ⟨v0, v1⟩
  unfold iblk0
  rw [View.read_apply]
  show (V1 m ρ c main_v5 : S512x512.Idx → EReal) _ = _
  refine Eq.trans (congrArg _ ?_) (host_wv m ρ c k e)
  funext a
  apply Fin.ext
  match a with
  | ⟨0, _⟩ => show win0_3.index t (0 : Fin 2) * 512 + 1 * k.val = k.val; omega
  | ⟨1, _⟩ => show win0_3.index t (1 : Fin 2) * 512 + 1 * e.val = e.val; omega

/-- What a point writes back to projection array Q is that point's block of the projection. -/
theorem flushed4_eq (t : Fin cfg0.N) :
    (dat0 (V1 m ρ) c).flushed 4 t = ((cfg0.win 4).blk t).view.read (Elt Ideal) (projArr (argX m c) (argWq m c)) := by
  show (cfg0.win 4).cut (grid0.coords t) ((dat0 (V1 m ρ) c).after 4 t) = _
  rw [after0_4]
  unfold out0_4
  rw [View.canon_unit_zero hz3]
  simp only [View.ld_unit_zero (S := S1x512x512) hz3, View.ld_unit_zero (S := S512x512) hz2]
  obtain ⟨b0, b1, b2, a0, a1, a2, f0, f1, f2, s0, s1, s2, -⟩ := idx_facts t
  funext j
  obtain ⟨u, r, e, rfl⟩ : ∃ (u : Fin 1) (r e : Fin 512), j = ix3 u r e := ⟨j 0, j 1, j 2, eq_ix3 j⟩
  rw [View.read_apply]
  have hu : u.val = 0 := by omega

  refine (block_entry (argX m c) (argWq m c) _ _ ⟨win0_4.index t (0 : Fin 3), b0⟩
    ⟨win0_4.index t (1 : Fin 3) * 512 + r.val, by omega⟩ e u r (fun k => ?_) (fun k => ?_)).trans
    (projArr_apply _ _ _ _ _ _ ?_ ?_ ?_).symm
  · exact xblock_apply m ρ c t r k _ a0.symm (by show win0_4.index t (1 : Fin 3) * 512 + r.val = _; rw [a1]) rfl
  · exact wqblock_apply m ρ c t k e
  · show win0_4.index t (0 : Fin 3) * 1 + 1 * u.val = win0_4.index t (0 : Fin 3); omega
  · show win0_4.index t (1 : Fin 3) * 512 + 1 * r.val = win0_4.index t (1 : Fin 3) * 512 + r.val; omega
  · show win0_4.index t (2 : Fin 3) * 512 + 1 * e.val = e.val; omega

theorem mem_blk4 (t : Fin cfg0.N) (i : S2x4096x512.Idx) :
    i ∈ ((cfg0.win 4).blk t).view.set ↔ ∀ a : Fin 3, win0_4.index t a * S1x512x512.size a ≤ (i a).val
      ∧ (i a).val < win0_4.index t a * S1x512x512.size a + S1x512x512.size a := by
  show i ∈ ((View.whole main_v8_0).slice (win0_4.rect t)).set ↔ _
  rw [View.set_slice_whole, Rect.mem_set_unit]
  exact Iff.rfl

/-- Row n of batch b lies in the block of the point at (b, n / 512): the blocks tile the array. -/
theorem cover4 (i : S2x4096x512.Idx) :
    ∃ t : Fin cfg0.N, (cfg0.win 4).flush t = true ∧ i ∈ ((cfg0.win 4).blk t).view.set := by
  have hi0 : (i 0).val < 2 := (i 0).isLt
  have hi1 : (i 1).val < 4096 := (i 1).isLt
  have hi2 : (i 2).val < 512 := (i 2).isLt
  obtain ⟨t, ht⟩ := idx_onto ⟨(i 0).val, hi0⟩ ⟨(i 1).val / 512, by omega⟩
  have q0 : win0_4.index t (0 : Fin 3) = (i 0).val := congrFun ht 0
  have q1 : win0_4.index t (1 : Fin 3) = (i 1).val / 512 := congrFun ht 1
  obtain ⟨b0, b1, b2, a0, a1, a2, f0, f1, f2, s0, s1, s2, -⟩ := idx_facts t
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 512 ≤ (i 2).val ∧ (i 2).val < win0_4.index t (2 : Fin 3) * 512 + 512; omega

/-- So projection array Q ends holding the projection. -/
theorem final4 : (dat0 (V1 m ρ) c).arrAt 4 cfg0.N = projArr (argX m c) (argWq m c) :=
  (dat0 (V1 m ρ) c).arrAt_eq_of_cover 4 _ (fun t _ => flushed4_eq m ρ c t) (cover4)

/-- What a point writes back to projection array K is that point's block of the projection. -/
theorem flushed5_eq (t : Fin cfg0.N) :
    (dat0 (V1 m ρ) c).flushed 5 t = ((cfg0.win 5).blk t).view.read (Elt Ideal) (projArr (argX m c) (argWk m c)) := by
  show (cfg0.win 5).cut (grid0.coords t) ((dat0 (V1 m ρ) c).after 5 t) = _
  rw [after0_5]
  unfold out0_5
  rw [View.canon_unit_zero hz3]
  simp only [View.ld_unit_zero (S := S1x512x512) hz3, View.ld_unit_zero (S := S512x512) hz2]
  obtain ⟨b0, b1, b2, a0, a1, a2, f0, f1, f2, s0, s1, s2, -⟩ := idx_facts t
  funext j
  obtain ⟨u, r, e, rfl⟩ : ∃ (u : Fin 1) (r e : Fin 512), j = ix3 u r e := ⟨j 0, j 1, j 2, eq_ix3 j⟩
  rw [View.read_apply]
  have hu : u.val = 0 := by omega
  rw [block3_eq]
  refine (block_entry (argX m c) (argWk m c) _ _ ⟨win0_4.index t (0 : Fin 3), b0⟩
    ⟨win0_4.index t (1 : Fin 3) * 512 + r.val, by omega⟩ e u r (fun k => ?_) (fun k => ?_)).trans
    (projArr_apply _ _ _ _ _ _ ?_ ?_ ?_).symm
  · exact xblock_apply m ρ c t r k _ a0.symm (by show win0_4.index t (1 : Fin 3) * 512 + r.val = _; rw [a1]) rfl
  · exact wkblock_apply m ρ c t k e
  · show win0_5.index t (0 : Fin 3) * 1 + 1 * u.val = win0_4.index t (0 : Fin 3); omega
  · show win0_5.index t (1 : Fin 3) * 512 + 1 * r.val = win0_4.index t (1 : Fin 3) * 512 + r.val; omega
  · show win0_5.index t (2 : Fin 3) * 512 + 1 * e.val = e.val; omega

theorem mem_blk5 (t : Fin cfg0.N) (i : S2x4096x512.Idx) :
    i ∈ ((cfg0.win 5).blk t).view.set ↔ ∀ a : Fin 3, win0_5.index t a * S1x512x512.size a ≤ (i a).val
      ∧ (i a).val < win0_5.index t a * S1x512x512.size a + S1x512x512.size a := by
  show i ∈ ((View.whole main_v8_1).slice (win0_5.rect t)).set ↔ _
  rw [View.set_slice_whole, Rect.mem_set_unit]
  exact Iff.rfl

/-- Row n of batch b lies in the block of the point at (b, n / 512): the blocks tile the array. -/
theorem cover5 (i : S2x4096x512.Idx) :
    ∃ t : Fin cfg0.N, (cfg0.win 5).flush t = true ∧ i ∈ ((cfg0.win 5).blk t).view.set := by
  have hi0 : (i 0).val < 2 := (i 0).isLt
  have hi1 : (i 1).val < 4096 := (i 1).isLt
  have hi2 : (i 2).val < 512 := (i 2).isLt
  obtain ⟨t, ht⟩ := idx_onto ⟨(i 0).val, hi0⟩ ⟨(i 1).val / 512, by omega⟩
  have q0 : win0_4.index t (0 : Fin 3) = (i 0).val := congrFun ht 0
  have q1 : win0_4.index t (1 : Fin 3) = (i 1).val / 512 := congrFun ht 1
  obtain ⟨b0, b1, b2, a0, a1, a2, f0, f1, f2, s0, s1, s2, -⟩ := idx_facts t
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 512 ≤ (i 2).val ∧ (i 2).val < win0_5.index t (2 : Fin 3) * 512 + 512; omega

/-- So projection array K ends holding the projection. -/
theorem final5 : (dat0 (V1 m ρ) c).arrAt 5 cfg0.N = projArr (argX m c) (argWk m c) :=
  (dat0 (V1 m ρ) c).arrAt_eq_of_cover 5 _ (fun t _ => flushed5_eq m ρ c t) (cover5)

/-- What a point writes back to projection array V is that point's block of the projection. -/
theorem flushed6_eq (t : Fin cfg0.N) :
    (dat0 (V1 m ρ) c).flushed 6 t = ((cfg0.win 6).blk t).view.read (Elt Ideal) (projArr (argX m c) (argWv m c)) := by
  show (cfg0.win 6).cut (grid0.coords t) ((dat0 (V1 m ρ) c).after 6 t) = _
  rw [after0_6]
  unfold out0_6
  rw [View.canon_unit_zero hz3]
  simp only [View.ld_unit_zero (S := S1x512x512) hz3, View.ld_unit_zero (S := S512x512) hz2]
  obtain ⟨b0, b1, b2, a0, a1, a2, f0, f1, f2, s0, s1, s2, -⟩ := idx_facts t
  funext j
  obtain ⟨u, r, e, rfl⟩ : ∃ (u : Fin 1) (r e : Fin 512), j = ix3 u r e := ⟨j 0, j 1, j 2, eq_ix3 j⟩
  rw [View.read_apply]
  have hu : u.val = 0 := by omega
  rw [block4_eq]
  refine (block_entry (argX m c) (argWv m c) _ _ ⟨win0_4.index t (0 : Fin 3), b0⟩
    ⟨win0_4.index t (1 : Fin 3) * 512 + r.val, by omega⟩ e u r (fun k => ?_) (fun k => ?_)).trans
    (projArr_apply _ _ _ _ _ _ ?_ ?_ ?_).symm
  · exact xblock_apply m ρ c t r k _ a0.symm (by show win0_4.index t (1 : Fin 3) * 512 + r.val = _; rw [a1]) rfl
  · exact wvblock_apply m ρ c t k e
  · show win0_6.index t (0 : Fin 3) * 1 + 1 * u.val = win0_4.index t (0 : Fin 3); omega
  · show win0_6.index t (1 : Fin 3) * 512 + 1 * r.val = win0_4.index t (1 : Fin 3) * 512 + r.val; omega
  · show win0_6.index t (2 : Fin 3) * 512 + 1 * e.val = e.val; omega

theorem mem_blk6 (t : Fin cfg0.N) (i : S2x4096x512.Idx) :
    i ∈ ((cfg0.win 6).blk t).view.set ↔ ∀ a : Fin 3, win0_6.index t a * S1x512x512.size a ≤ (i a).val
      ∧ (i a).val < win0_6.index t a * S1x512x512.size a + S1x512x512.size a := by
  show i ∈ ((View.whole main_v8_2).slice (win0_6.rect t)).set ↔ _
  rw [View.set_slice_whole, Rect.mem_set_unit]
  exact Iff.rfl

/-- Row n of batch b lies in the block of the point at (b, n / 512): the blocks tile the array. -/
theorem cover6 (i : S2x4096x512.Idx) :
    ∃ t : Fin cfg0.N, (cfg0.win 6).flush t = true ∧ i ∈ ((cfg0.win 6).blk t).view.set := by
  have hi0 : (i 0).val < 2 := (i 0).isLt
  have hi1 : (i 1).val < 4096 := (i 1).isLt
  have hi2 : (i 2).val < 512 := (i 2).isLt
  obtain ⟨t, ht⟩ := idx_onto ⟨(i 0).val, hi0⟩ ⟨(i 1).val / 512, by omega⟩
  have q0 : win0_4.index t (0 : Fin 3) = (i 0).val := congrFun ht 0
  have q1 : win0_4.index t (1 : Fin 3) = (i 1).val / 512 := congrFun ht 1
  obtain ⟨b0, b1, b2, a0, a1, a2, f0, f1, f2, s0, s1, s2, -⟩ := idx_facts t
  refine ⟨t, flush0_6 t, ?_⟩
  rw [mem_blk6]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 512 ≤ (i 1).val ∧ (i 1).val < win0_6.index t (1 : Fin 3) * 512 + 512; omega
  | ⟨2, _⟩ => show win0_6.index t (2 : Fin 3) * 512 ≤ (i 2).val ∧ (i 2).val < win0_6.index t (2 : Fin 3) * 512 + 512; omega

/-- So projection array V ends holding the projection. -/
theorem final6 : (dat0 (V1 m ρ) c).arrAt 6 cfg0.N = projArr (argX m c) (argWv m c) :=
  (dat0 (V1 m ρ) c).arrAt_eq_of_cover 6 _ (fun t _ => flushed6_eq m ρ c t) (cover6)

/-! ## What the second kernel finds in its five input arrays -/

/-- The three projected arrays, -/
theorem entry_q : (V2 m ρ c (Pipeline.arrRef spec1 0) : S2x4096x512.Idx → EReal)
    = fun i => Cert.Attn.proj (argX m c) (argWq m c) (i 0) (i 1) (i 2) :=
  (W2_arr m ρ c 4).trans (final4 m ρ c)
theorem entry_k : (V2 m ρ c (Pipeline.arrRef spec1 1) : S2x4096x512.Idx → EReal)
    = fun i => Cert.Attn.proj (argX m c) (argWk m c) (i 0) (i 1) (i 2) :=
  (W2_arr m ρ c 5).trans (final5 m ρ c)
theorem entry_v : (V2 m ρ c (Pipeline.arrRef spec1 2) : S2x4096x512.Idx → EReal)
    = fun i => Cert.Attn.proj (argX m c) (argWv m c) (i 0) (i 1) (i 2) :=
  (W2_arr m ρ c 6).trans (final6 m ρ c)

/-- the output weights transposed (the first kernel does not touch them), -/
theorem entry_wo : (V2 m ρ c (Pipeline.arrRef spec1 3) : S512x512.Idx → EReal)
    = fun i => argWo m c (ix2 (i 1) (i 0)) := by
  have h : W2 m ρ c (Proc.devRef .tc main_v7) = W1 m ρ c (Proc.devRef .tc main_v7) :=
    W2_of_ne m ρ c main_v7 (by decide)
  funext i
  obtain ⟨k, e, rfl⟩ : ∃ (k e : Fin 512), i = ix2 k e := ⟨i 0, i 1, eq_ix2 i⟩
  exact (congrFun h _).trans (host_wo m ρ c k e)

/-- and the activations as launched (the first kernel only reads them). -/
theorem entry_x : (V2 m ρ c (Pipeline.arrRef spec1 4) : S2x4096x512.Idx → EReal) = argX m c :=
  ((W2_arr m ρ c 0).trans (((dat0 (V1 m ρ) c).arrAt_in 0 rfl _).trans (A_eq0 (V1 m ρ) c 0))).trans (host_x m ρ c)

end Cert.KernelIdeal.EntryValue

end
-- ==== Proof.AttnBody.lean ====
/-
  What one grid point of the attention launch leaves in its output block, as a function of its five input blocks.

  The body works head by head. For head `h` it loads lanes `64h … 64h+63` of the query tile (256 rows) and of the key
  and value arrays (4096 rows), computes the head's softmax attention on them, and stores the 256 × 64 result into lanes
  `64h … 64h+63` of a 256 × 512 scratch. The eight stores tile the scratch, so the load of the whole scratch that
  follows reads, at lane `64h + d`, head `h`'s result at lane `d`. The scratch is then multiplied by the output
  weights and the residual block is added; that sum is the one store into the output block.
-/
import proofs.«151363_j47270410060360_2_alg».proof.Proof.Gen.KernelIdeal.Frame
import proofs.«151363_j47270410060360_2_alg».proof.Proof.Spec
import Idealize.ShloMosaic.Lib.Pipeline.Value
import Idealize.ShloMosaic.Lib.ValueIdx

set_option maxRecDepth 16384

noncomputable section

namespace Cert.KernelIdeal.AttnBody

open Cert.KernelIdeal Cert.KernelIdeal.Gen
open Idealize.ShloMosaic Idealize.ShloMosaic.TcCoe Idealize.ShloMosaic.Tactic Idealize.ShloMosaic.ValueIdx
open Idealize.SL Idealize.SL.Sem
open Cert.Attn (lane headOf laneOf)

theorem zero3 : (![0, 0, 0] : Fin 3 → Nat) = fun _ => 0 := funext fun a => by fin_cases a <;> rfl
theorem zero2 : (![0, 0] : Fin 2 → Nat) = fun _ => 0 := funext fun a => by fin_cases a <;> rfl

/-- Lanes `64h … 64h+63` of the query tile. -/
def qSlice (x0 : Vec Ideal S1x256x512 .bf16) (h : Fin 8) : Vec Ideal S1x256x64 .bf16 :=
  fun y => x0 (ix3 (y 0) (y 1) (lane h (y 2)))

/-- Lanes `64h … 64h+63` of a key or value array. -/
def kvSlice (x1 : Vec Ideal S1x4096x512 .bf16) (h : Fin 8) : Vec Ideal S1x4096x64 .bf16 :=
  fun y => x1 (ix3 (y 0) (y 1) (lane h (y 2)))

/-- The scratch after the eight heads: at row `r`, lane `64h + d`, head `h`'s attention at row `r`, lane `d`. -/
def slabFn (x0 : Vec Ideal S1x256x512 .bf16) (x1 x2 : Vec Ideal S1x4096x512 .bf16) : Vec Ideal S256x512 .f32 :=
  fun y => k1_pay3 (F := Ideal) (qSlice x0 (headOf (y 1))) (kvSlice x1 (headOf (y 1))) (kvSlice x2 (headOf (y 1)))
    (ix2 (y 0) (laneOf (y 1)))

/-- A load of the query tile through the 64-lane rectangle at lane offset `64h` reads head `h`'s lanes. -/
theorem ld_q (x0 : Vec Ideal S1x256x512 .bf16) (h : Fin 8) (off : Fin 3 → Nat)
    (h0 : off 0 = 0) (h1 : off 1 = 0) (h2 : off 2 = 64 * h.val)
    (inb : ∀ a, off a + S1x256x64.size a ≤ S1x256x512.size a) :
    View.ld x0 (Rect.unit (s := S1x256x512) off S1x256x64.size inb) = qSlice x0 h := by
  funext y
  show x0 _ = x0 _
  refine congrArg x0 (funext fun a => Fin.ext ?_)
  match a with
  | ⟨0, _⟩ => show off 0 + 1 * (y 0).val = (y 0).val; omega
  | ⟨1, _⟩ => show off 1 + 1 * (y 1).val = (y 1).val; omega
  | ⟨2, _⟩ => show off 2 + 1 * (y 2).val = 64 * h.val + (y 2).val; omega

/-- The same for a key or value array. -/
theorem ld_kv (x1 : Vec Ideal S1x4096x512 .bf16) (h : Fin 8) (off : Fin 3 → Nat)
    (h0 : off 0 = 0) (h1 : off 1 = 0) (h2 : off 2 = 64 * h.val)
    (inb : ∀ a, off a + S1x4096x64.size a ≤ S1x4096x512.size a) :
    View.ld x1 (Rect.unit (s := S1x4096x512) off S1x4096x64.size inb) = kvSlice x1 h := by
  funext y
  show x1 _ = x1 _
  refine congrArg x1 (funext fun a => Fin.ext ?_)
  match a with
  | ⟨0, _⟩ => show off 0 + 1 * (y 0).val = (y 0).val; omega
  | ⟨1, _⟩ => show off 1 + 1 * (y 1).val = (y 1).val; omega
  | ⟨2, _⟩ => show off 2 + 1 * (y 2).val = 64 * h.val + (y 2).val; omega

/-- The scratch function at row `r`, lane `d` of head `h`. -/
theorem slabFn_at (x0 : Vec Ideal S1x256x512 .bf16) (x1 x2 : Vec Ideal S1x4096x512 .bf16) (h : Fin 8)
    (y : S256x512.Idx) (r : Fin 256) (d : Fin 64) (hy0 : (y 0).val = r.val) (hy1 : (y 1).val = 64 * h.val + d.val) :
    slabFn x0 x1 x2 y = k1_pay3 (F := Ideal) (qSlice x0 h) (kvSlice x1 h) (kvSlice x2 h) (ix2 r d) := by
  have hh : headOf (y 1) = h := Fin.ext (by show (y 1).val / 64 = h.val; omega)
  have hd : laneOf (y 1) = d := Fin.ext (by show (y 1).val % 64 = d.val; omega)
  have hr : (y 0 : Fin 256) = r := Fin.ext hy0
  unfold slabFn
  rw [hh, hd, hr]

/-! The printed body computes each head in the same way; where the text was cut in the middle of a head, the parts
    compose to the same function of the three loads. -/

theorem head1_eq (q : Vec Ideal S1x256x64 .bf16) (k v : Vec Ideal S1x4096x64 .bf16) :
    k1_pay6 (F := Ideal) (k1_pay4 v) (k1_pay5 q k) (FloatOps.ofBits FTy.f32 1040187392#32) = k1_pay3 q k v := rfl
theorem head2_eq (q : Vec Ideal S1x256x64 .bf16) (k v : Vec Ideal S1x4096x64 .bf16) :
    k1_pay8 (F := Ideal) (k1_pay7 q k v) = k1_pay3 q k v := rfl
theorem head3_eq (q : Vec Ideal S1x256x64 .bf16) (k v : Vec Ideal S1x4096x64 .bf16) :
    k1_pay9 (F := Ideal) q k v = k1_pay3 q k v := rfl
theorem head4_eq (q : Vec Ideal S1x256x64 .bf16) (k v : Vec Ideal S1x4096x64 .bf16) :
    k1_pay12 (F := Ideal) (k1_pay10 v) (k1_pay11 q k) (FloatOps.ofBits FTy.f32 1040187392#32) = k1_pay3 q k v := rfl
theorem head5_eq (q : Vec Ideal S1x256x64 .bf16) (k v : Vec Ideal S1x4096x64 .bf16) :
    k1_pay14 (F := Ideal) (k1_pay13 q k v) = k1_pay3 q k v := rfl
theorem head6_eq (q : Vec Ideal S1x256x64 .bf16) (k v : Vec Ideal S1x4096x64 .bf16) :
    k1_pay15 (F := Ideal) q k v = k1_pay3 q k v := rfl
theorem head7_eq (q : Vec Ideal S1x256x64 .bf16) (k v : Vec Ideal S1x4096x64 .bf16) :
    k1_pay1 (F := Ideal) (k1_pay16 v) (k1_pay17 q k) (FloatOps.ofBits FTy.f32 1040187392#32) = k1_pay3 q k v := rfl

/-! ## The eight stores into the scratch, last first, and the whole-scratch load after them -/

/-- The scratch's stores as the body makes them: head `h`'s result through the 256 × 64 rectangle at lane `64h`, each a
    function of the three lane-slice loads of that head. -/
def slabPieces (x0 : Vec Ideal S1x256x512 .bf16) (x1 x2 : Vec Ideal S1x4096x512 .bf16) :
    List (View.Piece (Elt Ideal) S256x512 .f32) :=
  [
    ⟨Rect.unit (s := S256x512) ![0, 448] S256x64.size inb_S256x512_S256x64_0_448,
      k1_pay1 (F := Ideal) (k1_pay16 (View.ld x2 (Rect.unit (s := S1x4096x512) ![0, 0, 448] S1x4096x64.size inb_S1x4096x512_S1x4096x64_0_0_448))) (k1_pay17 (View.ld x0 (Rect.unit (s := S1x256x512) ![0, 0, 448] S1x256x64.size inb_S1x256x512_S1x256x64_0_0_448)) (View.ld x1 (Rect.unit (s := S1x4096x512) ![0, 0, 448] S1x4096x64.size inb_S1x4096x512_S1x4096x64_0_0_448))) (FloatOps.ofBits FTy.f32 1040187392#32)⟩,
    ⟨Rect.unit (s := S256x512) ![0, 384] S256x64.size inb_S256x512_S256x64_0_384,
      k1_pay15 (F := Ideal) (View.ld x0 (Rect.unit (s := S1x256x512) ![0, 0, 384] S1x256x64.size inb_S1x256x512_S1x256x64_0_0_384)) (View.ld x1 (Rect.unit (s := S1x4096x512) ![0, 0, 384] S1x4096x64.size inb_S1x4096x512_S1x4096x64_0_0_384)) (View.ld x2 (Rect.unit (s := S1x4096x512) ![0, 0, 384] S1x4096x64.size inb_S1x4096x512_S1x4096x64_0_0_384))⟩,
    ⟨Rect.unit (s := S256x512) ![0, 320] S256x64.size inb_S256x512_S256x64_0_320,
      k1_pay14 (F := Ideal) (k1_pay13 (View.ld x0 (Rect.unit (s := S1x256x512) ![0, 0, 320] S1x256x64.size inb_S1x256x512_S1x256x64_0_0_320)) (View.ld x1 (Rect.unit (s := S1x4096x512) ![0, 0, 320] S1x4096x64.size inb_S1x4096x512_S1x4096x64_0_0_320)) (View.ld x2 (Rect.unit (s := S1x4096x512) ![0, 0, 320] S1x4096x64.size inb_S1x4096x512_S1x4096x64_0_0_320)))⟩,
    ⟨Rect.unit (s := S256x512) ![0, 256] S256x64.size inb_S256x512_S256x64_0_256,
      k1_pay12 (F := Ideal) (k1_pay10 (View.ld x2 (Rect.unit (s := S1x4096x512) ![0, 0, 256] S1x4096x64.size inb_S1x4096x512_S1x4096x64_0_0_256))) (k1_pay11 (View.ld x0 (Rect.unit (s := S1x256x512) ![0, 0, 256] S1x256x64.size inb_S1x256x512_S1x256x64_0_0_256)) (View.ld x1 (Rect.unit (s := S1x4096x512) ![0, 0, 256] S1x4096x64.size inb_S1x4096x512_S1x4096x64_0_0_256))) (FloatOps.ofBits FTy.f32 1040187392#32)⟩,
    ⟨Rect.unit (s := S256x512) ![0, 192] S256x64.size inb_S256x512_S256x64_0_192,
      k1_pay9 (F := Ideal) (View.ld x0 (Rect.unit (s := S1x256x512) ![0, 0, 192] S1x256x64.size inb_S1x256x512_S1x256x64_0_0_192)) (View.ld x1 (Rect.unit (s := S1x4096x512) ![0, 0, 192] S1x4096x64.size inb_S1x4096x512_S1x4096x64_0_0_192)) (View.ld x2 (Rect.unit (s := S1x4096x512) ![0, 0, 192] S1x4096x64.size inb_S1x4096x512_S1x4096x64_0_0_192))⟩,
    ⟨Rect.unit (s := S256x512) ![0, 128] S256x64.size inb_S256x512_S256x64_0_128,
      k1_pay8 (F := Ideal) (k1_pay7 (View.ld x0 (Rect.unit (s := S1x256x512) ![0, 0, 128] S1x256x64.size inb_S1x256x512_S1x256x64_0_0_128)) (View.ld x1 (Rect.unit (s := S1x4096x512) ![0, 0, 128] S1x4096x64.size inb_S1x4096x512_S1x4096x64_0_0_128)) (View.ld x2 (Rect.unit (s := S1x4096x512) ![0, 0, 128] S1x4096x64.size inb_S1x4096x512_S1x4096x64_0_0_128)))⟩,
    ⟨Rect.unit (s := S256x512) ![0, 64] S256x64.size inb_S256x512_S256x64_0_64,
      k1_pay6 (F := Ideal) (k1_pay4 (View.ld x2 (Rect.unit (s := S1x4096x512) ![0, 0, 64] S1x4096x64.size inb_S1x4096x512_S1x4096x64_0_0_64))) (k1_pay5 (View.ld x0 (Rect.unit (s := S1x256x512) ![0, 0, 64] S1x256x64.size inb_S1x256x512_S1x256x64_0_0_64)) (View.ld x1 (Rect.unit (s := S1x4096x512) ![0, 0, 64] S1x4096x64.size inb_S1x4096x512_S1x4096x64_0_0_64))) (FloatOps.ofBits FTy.f32 1040187392#32)⟩,
    ⟨Rect.unit (s := S256x512) ![0, 0] S256x64.size inb_S256x512_S256x64_0_0,
      k1_pay3 (F := Ideal) (View.ld x0 (Rect.unit (s := S1x256x512) ![0, 0, 0] S1x256x64.size inb_S1x256x512_S1x256x64_0_0_0)) (View.ld x1 (Rect.unit (s := S1x4096x512) ![0, 0, 0] S1x4096x64.size inb_S1x4096x512_S1x4096x64_0_0_0)) (View.ld x2 (Rect.unit (s := S1x4096x512) ![0, 0, 0] S1x4096x64.size inb_S1x4096x512_S1x4096x64_0_0_0))⟩
  ]

/-- Head `h`'s result at its own index agrees with the scratch function at the index its rectangle sends it to. -/
theorem piece_agree (x0 : Vec Ideal S1x256x512 .bf16) (x1 x2 : Vec Ideal S1x4096x512 .bf16) (h : Fin 8) (off : Fin 2 → Nat)
    (h0 : off 0 = 0) (h1 : off 1 = 64 * h.val) (inb : ∀ a, off a + S256x64.size a ≤ S256x512.size a)
    (x : (Rect.unit (s := S256x512) off S256x64.size inb).shape.Idx) :
    k1_pay3 (F := Ideal) (qSlice x0 h) (kvSlice x1 h) (kvSlice x2 h) x
      = slabFn x0 x1 x2 ((Rect.unit (s := S256x512) off S256x64.size inb).emb x) := by
  have hx0 : (x 0).val < 256 := (x 0).isLt
  have hx1 : (x 1).val < 64 := (x 1).isLt
  rw [slabFn_at x0 x1 x2 h _ ⟨(x 0).val, hx0⟩ ⟨(x 1).val, hx1⟩
    (by show off 0 + 1 * (x 0).val = (x 0).val; omega) (by show off 1 + 1 * (x 1).val = 64 * h.val + (x 1).val; omega)]
  exact congrArg _ (funext fun a => by match a with | ⟨0, _⟩ => rfl | ⟨1, _⟩ => rfl)

/-- Every store's payload is the scratch function on the store's rectangle. -/
theorem pieces_agree (x0 : Vec Ideal S1x256x512 .bf16) (x1 x2 : Vec Ideal S1x4096x512 .bf16) :
    ∀ p ∈ slabPieces x0 x1 x2, ∀ x : p.1.shape.Idx, p.2 x = slabFn x0 x1 x2 (p.1.emb x) := by
  intro p hp
  simp only [slabPieces, List.mem_cons, List.not_mem_nil, or_false] at hp
  rcases hp with rfl | rfl | rfl | rfl | rfl | rfl | rfl | rfl
  · intro x
    dsimp only at x ⊢
    rw [head7_eq, ld_q x0 7 ![0, 0, 448] rfl rfl rfl, ld_kv x1 7 ![0, 0, 448] rfl rfl rfl, ld_kv x2 7 ![0, 0, 448] rfl rfl rfl]
    exact piece_agree x0 x1 x2 7 ![0, 448] rfl rfl inb_S256x512_S256x64_0_448 x
  · intro x
    dsimp only at x ⊢
    rw [head6_eq, ld_q x0 6 ![0, 0, 384] rfl rfl rfl, ld_kv x1 6 ![0, 0, 384] rfl rfl rfl, ld_kv x2 6 ![0, 0, 384] rfl rfl rfl]
    exact piece_agree x0 x1 x2 6 ![0, 384] rfl rfl inb_S256x512_S256x64_0_384 x
  · intro x
    dsimp only at x ⊢
    rw [head5_eq, ld_q x0 5 ![0, 0, 320] rfl rfl rfl, ld_kv x1 5 ![0, 0, 320] rfl rfl rfl, ld_kv x2 5 ![0, 0, 320] rfl rfl rfl]
    exact piece_agree x0 x1 x2 5 ![0, 320] rfl rfl inb_S256x512_S256x64_0_320 x
  · intro x
    dsimp only at x ⊢
    rw [head4_eq, ld_q x0 4 ![0, 0, 256] rfl rfl rfl, ld_kv x1 4 ![0, 0, 256] rfl rfl rfl, ld_kv x2 4 ![0, 0, 256] rfl rfl rfl]
    exact piece_agree x0 x1 x2 4 ![0, 256] rfl rfl inb_S256x512_S256x64_0_256 x
  · intro x
    dsimp only at x ⊢
    rw [head3_eq, ld_q x0 3 ![0, 0, 192] rfl rfl rfl, ld_kv x1 3 ![0, 0, 192] rfl rfl rfl, ld_kv x2 3 ![0, 0, 192] rfl rfl rfl]
    exact piece_agree x0 x1 x2 3 ![0, 192] rfl rfl inb_S256x512_S256x64_0_192 x
  · intro x
    dsimp only at x ⊢
    rw [head2_eq, ld_q x0 2 ![0, 0, 128] rfl rfl rfl, ld_kv x1 2 ![0, 0, 128] rfl rfl rfl, ld_kv x2 2 ![0, 0, 128] rfl rfl rfl]
    exact piece_agree x0 x1 x2 2 ![0, 128] rfl rfl inb_S256x512_S256x64_0_128 x
  · intro x
    dsimp only at x ⊢
    rw [head1_eq, ld_q x0 1 ![0, 0, 64] rfl rfl rfl, ld_kv x1 1 ![0, 0, 64] rfl rfl rfl, ld_kv x2 1 ![0, 0, 64] rfl rfl rfl]
    exact piece_agree x0 x1 x2 1 ![0, 64] rfl rfl inb_S256x512_S256x64_0_64 x
  · intro x
    dsimp only at x ⊢
    rw [ld_q x0 0 ![0, 0, 0] rfl rfl rfl, ld_kv x1 0 ![0, 0, 0] rfl rfl rfl, ld_kv x2 0 ![0, 0, 0] rfl rfl rfl]
    exact piece_agree x0 x1 x2 0 ![0, 0] rfl rfl inb_S256x512_S256x64_0_0 x

/-- The eight rectangles tile the scratch, so every index is under one of them. -/
theorem pieces_cover (x0 : Vec Ideal S1x256x512 .bf16) (x1 x2 : Vec Ideal S1x4096x512 .bf16) :
    ∀ y : S256x512.Idx, ∃ p ∈ slabPieces x0 x1 x2, y ∈ p.1.set :=
  View.cover_of_tiledL (slabPieces x0 x1 x2) S256x64.size (by unfold slabPieces; sl_kernel_rfl)

/-- A load of the whole scratch issued after the eight stores reads the scratch function, through any view. -/
theorem slab_read {sig' : RefSig} {κ : Kind} {sp : Space} (v : View sig' κ sp S256x512 .f32)
    (x0 : Vec Ideal S1x256x512 .bf16) (x1 x2 : Vec Ideal S1x4096x512 .bf16) :
    v.readCov (slabPieces x0 x1 x2) (Rect.unit (s := S256x512) ![0, 0] ![256, 512] inb_S256x512_S256x512_0_0).toLoadRect
      = slabFn x0 x1 x2 := by
  rw [View.readCov_eq_canon']
  funext j
  have hj : (Rect.unit (s := S256x512) ![0, 0] ![256, 512] inb_S256x512_S256x512_0_0).toLoadRect.idx j = j :=
    funext fun a => Fin.ext (by
      match a with
      | ⟨0, _⟩ => show 0 + 1 * (j 0).val = (j 0).val; omega
      | ⟨1, _⟩ => show 0 + 1 * (j 1).val = (j 1).val; omega)
  show View.canon (slabPieces x0 x1 x2) _ = _
  rw [hj]
  exact View.canon_apply_of_pieces (slabFn x0 x1 x2) (slabPieces x0 x1 x2) (pieces_agree x0 x1 x2) j (pieces_cover x0 x1 x2 j)

/-! ## The output block after the body -/

set_option maxHeartbeats 1000000 in
/-- What the body leaves in the output block, on whole staging buffers holding the five input blocks: the scratch
    function of the query, key and value blocks, multiplied by the output weights' block, plus the residual block. -/
theorem body_out (c : Dev nD) (i : grid1.Coords) (arg2 : Memref sig .tc .vmem S1x256x512 .bf16) (harg2 : arg2.IsWhole) (arg3 : Memref sig .tc .vmem S1x4096x512 .bf16) (harg3 : arg3.IsWhole) (arg4 : Memref sig .tc .vmem S1x4096x512 .bf16) (harg4 : arg4.IsWhole) (arg5 : Memref sig .tc .vmem S512x512 .bf16) (harg5 : arg5.IsWhole) (arg6 : Memref sig .tc .vmem S1x256x512 .f32) (harg6 : arg6.IsWhole) (arg7 : Memref sig .tc .vmem S1x256x512 .f32) (harg7 : arg7.IsWhole) (arg8 : Memref sig .tc .vmem S256x512 .f32) (harg8 : arg8.IsWhole)
    (x0 : Vec Ideal S1x256x512 .bf16) (x1 : Vec Ideal S1x4096x512 .bf16) (x2 : Vec Ideal S1x4096x512 .bf16) (x3 : Vec Ideal S512x512 .bf16) (x4 : Vec Ideal S1x256x512 .f32) :
    out1_A_5 (F := Ideal) c i arg2 harg2 arg3 harg3 arg4 harg4 arg5 harg5 arg6 harg6 arg7 harg7 arg8 harg8 x0 x1 x2 x3 x4 = k1_pay2 (F := Ideal) (slabFn x0 x1 x2) x3 x4 := by
  rw [← slab_read arg8.view x0 x1 x2]
  unfold out1_A_5
  rw [View.read_writes_eq_canon _ _ _ (cover1_A_5 c i arg2 harg2 arg3 harg3 arg4 harg4 arg5 harg5 arg6 harg6 arg7 harg7 arg8 harg8 x0 x1 x2 x3 x4)]
  unfold kernelRun1_A
  dsimp only
  sl_unfold_words
  rw [View.canon_unit_zero zero3]
  simp only [View.readAt_eq_ld, harg2.read_unread, harg3.read_unread, harg4.read_unread, harg5.read_unread, harg6.read_unread,
    View.ld_unit_zero (S := S512x512) zero2, View.ld_unit_zero (S := S1x256x512) zero3]
  rfl

end Cert.KernelIdeal.AttnBody

end
-- ==== Proof.LibColumnLayout.lean ====
/-
  Column layouts read at an index, and a row sum at the ideal instance.

  A sum over the last axis of an `[a, b]` array taken with the axis kept leaves a column `[a, 1]`. Three re-layings of such a
  column occur around it: the cast of a vector `[a]` to the column `[a, 1]`, the cast of a column `[a, 1]` to the row `[1, a]`
  (the same `a` numbers in the same row-major order), and the broadcast of a column `[a, 1]` along a new second extent to
  `[a, b]`. Each, read at an index, is the operand at the evident index: entry `(i, 0)` of the column is entry `i` of the vector,
  entry `(0, i)` of the row is entry `(i, 0)` of the column, and entry `(p, c)` of the broadcast is entry `(p, 0)` of the column.
  The host's `broadcast_in_dim` of a vector to a column along axis 0 reads the same way.

  On the extended reals a sum along the second axis of an `[a, b]` array, at row `p`, is the sum over `d` of the entries
  `(p, d)` — for a vector reduction and for the host's reduction from an initial value alike.
-/
import Idealize.ShloMosaic.Lib.ValueLayout
import Idealize.ShloMosaic.PureOps.Ideal.Laws

noncomputable section

namespace Cert.LibColumnLayout

open Idealize.ShloMosaic Idealize.ShloMosaic.ValueIdx

variable {α : Type}

/-! ## A vector as a column, a column as a row, a column broadcast along rows -/

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to the row `[1, a]` reads, at `(u, i)`, the column at `(i, 0)`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of an `[a]` array to the column `[a, 1]` along axis 0 reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-! ## A sum along the second axis, on the extended reals -/

/-- A vector reduction by addition along the second axis of an `[a, b]` array, at row `p`: the sum of that row. -/
theorem multiReduction_add_rows_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (p : Fin a) : multiReduction .add [1] ⟨1, ![a]⟩ src acc h hφ hacc (ix1 p) = ∑ d : Fin b, src (ix2 p d) := by
  refine (Ideal.multiReduction_add_single src acc h hφ hacc (ix1 p)).trans ?_
  refine Finset.sum_congr rfl fun d _ => congrArg src ?_
  funext ax; apply Fin.ext
  match ax with
  | ⟨0, _⟩ => rfl
  | ⟨1, _⟩ => rfl

/-- The host's reduction by addition along the second axis from an initial value, at row `p`: the initial value plus the
    sum of that row. -/
theorem hostReduceAdd_rows_apply {a b : ℕ} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (p : Fin a) :
    Ideal.hostReduceAdd h' x init (ix1 p) = init + ∑ d : Fin b, x (ix2 p d) := by
  refine (Ideal.hostReduceAdd_single h' h x init (ix1 p)).trans ?_
  refine congrArg (init + ·) (Finset.sum_congr rfl fun d _ => congrArg x ?_)
  funext ax; apply Fin.ext
  match ax with
  | ⟨0, _⟩ => rfl
  | ⟨1, _⟩ => rfl

end Cert.LibColumnLayout

end
-- ==== Proof.HeadValue.lean ====
/-
  One attention head on a tile of 256 query rows, and the output projection, read entry by entry on the extended reals.

  The head's arithmetic is a chain of array operations: the product of the queries with the transposed keys, the scale,
  the maximum of each row, the exponential of the difference, the sum of each row, the quotient, and the product with
  the values. Read at one entry (r, d) the chain is the familiar formula: with the score
  s r j = (sum over e of q[r,e] * k[j,e]) * scale, the row maximum M r = max over j of s r j (starting from the floor
  value), and the weight w r j = exp (s r j - M r), the entry is the sum over j of (w r j / sum over j' of w r j') * v[j,d].
  The projection is a plain matrix product plus the residual block.

  Each step is read at an index by one small lemma; the lemmas for the row reductions and the normalised weights are
  stated for an arbitrary 256 x 4096 array of scores, so that no large array is ever evaluated.
-/
import proofs.«151363_j47270410060360_2_alg».proof.Proof.Gen.KernelIdeal.Skeleton
import proofs.«151363_j47270410060360_2_alg».proof.Proof.Spec
import proofs.«151363_j47270410060360_2_alg».proof.Proof.LibColumnLayout
import proofs.«151363_j47270410060360_2_alg».proof.Proof.LibMatmulSum
import proofs.«151363_j47270410060360_2_alg».proof.Proof.LibPlainMatmul
import Idealize.ShloMosaic.Lib.ValueLayout
import Idealize.ShloMosaic.PureOps.Ideal.Laws

noncomputable section

open scoped BigOperators

namespace Cert.KernelIdeal.HeadValue

open Idealize.ShloMosaic Idealize.ShloMosaic.ValueIdx Cert.KernelIdeal Cert.KernelIdeal.Gen

/-! ## The dimension numbers -/

/-- The product of the weights with the values, and the output projection, use the plain dimension numbers:
    rows by contraction times contraction by columns. -/
theorem dotPV_eq : dot_S256x4096_S4096x64_S256x64_1_0_0_1_n_n = DotDims.plain 256 4096 64 := rfl
theorem dotOut_eq : dot_S256x512_S512x512_S256x512_1_0_0_1_n_n = DotDims.plain 256 512 512 := rfl

/-- The dimension numbers of the product of the queries with the transposed keys: both operands are contracted on
    their second axis. -/
abbrev dotQK : DotDims S256x64 S4096x64 S256x4096 := dot_S256x64_S4096x64_S256x4096_1_1_0_0_n_n

/-- The left operand's row is the output's row. -/
theorem qk_lhs_0 (i : S256x4096.Idx) (q : dotQK.contr.Idx) : (dotQK.lhsIdx i q 0).val = (i 0).val := by
  unfold DotDims.lhsIdx
  rw [dif_neg (show ¬(0 : Fin S256x64.rank) ∈ dotQK.lhsBatch by decide),
    dif_pos (show (0 : Fin S256x64.rank) ∈ dotQK.lhsNonContracting by decide)]
  rfl
/-- The left operand's column is the contraction position. -/
theorem qk_lhs_1 (i : S256x4096.Idx) (q : dotQK.contr.Idx) : (dotQK.lhsIdx i q 1).val = (q ⟨0, by decide⟩).val :=
  dotQK.lhsIdx_val_of_single rfl i q
/-- The right operand's row is the output's column. -/
theorem qk_rhs_0 (i : S256x4096.Idx) (q : dotQK.contr.Idx) : (dotQK.rhsIdx i q 0).val = (i 1).val := by
  unfold DotDims.rhsIdx
  rw [dif_neg (show ¬(0 : Fin S4096x64.rank) ∈ dotQK.rhsBatch by decide),
    dif_pos (show (0 : Fin S4096x64.rank) ∈ dotQK.rhsNonContracting by decide)]
  rfl
/-- The right operand's column is the contraction position. -/
theorem qk_rhs_1 (i : S256x4096.Idx) (q : dotQK.contr.Idx) : (dotQK.rhsIdx i q 1).val = (q ⟨0, by decide⟩).val :=
  dotQK.rhsIdx_val_of_single rfl i q

/-- At output entry (r, j) and contraction position e the queries are read at (r, e) … -/
theorem qk_lhsIdx (r : Fin 256) (j : Fin 4096) (e : Fin 64) :
    dotQK.lhsIdx (ix2 r j) ((contrEquiv1 dotQK 64 rfl rfl).symm e) = ix2 r e :=
  funext fun a => Fin.ext (by
    match a with
    | ⟨0, _⟩ => exact qk_lhs_0 _ _
    | ⟨1, _⟩ => exact (qk_lhs_1 _ _).trans (contrEquiv1_symm_val dotQK 64 rfl rfl e))
/-- … and the keys at (j, e). -/
theorem qk_rhsIdx (r : Fin 256) (j : Fin 4096) (e : Fin 64) :
    dotQK.rhsIdx (ix2 r j) ((contrEquiv1 dotQK 64 rfl rfl).symm e) = ix2 j e :=
  funext fun a => Fin.ext (by
    match a with
    | ⟨0, _⟩ => exact qk_rhs_0 _ _
    | ⟨1, _⟩ => exact (qk_rhs_1 _ _).trans (contrEquiv1_symm_val dotQK 64 rfl rfl e))

/-! ## The scores -/

/-- The product of the queries with the transposed keys, at (r, j): the inner product of query row r and key row j. -/
theorem qk_apply (q : FVec Ideal S256x64 .bf16) (k : FVec Ideal S4096x64 .bf16) (r : Fin 256) (j : Fin 4096) :
    matmul dotQK none q k (constant S256x4096 .f32 0x00000000#32) (ix2 r j) = ∑ e : Fin 64, q (ix2 r e) * k (ix2 j e) :=
  MatmulSum.matmul_zero_apply_single dotQK none 64 rfl rfl q k (ix2 r j) (fun e => ix2 r e) (fun e => ix2 j e)
    (fun e => qk_lhsIdx r j e) (fun e => qk_rhsIdx r j e)

/-- The two float words the head carries are the specification's. -/
theorem scale_eq : (Scalar.ofBits .f32 0x3E000000#32 : Ideal .f32) = Cert.Attn.scale := rfl
theorem floor_eq : (FloatOps.ofBits .f32 0xFF800000#32 : Ideal .f32) = Cert.Attn.floor := rfl

/-! ## Row reductions of an array of scores -/

/-- The maximum along the second axis, at row r: the fold of max over that row, from the floor value. -/
theorem rowMax_apply (src : FVec Ideal S256x4096 .f32) (h : S256x4096.Reduces [1] S256) (hφ : FKind.Formats .f32)
    (hacc : (0xFF800000#32 : BitVec 32) = FKind.maximumf.neutral .f32 hφ) (r : Fin 256) :
    multiReduction .maximumf [1] S256 src 0xFF800000#32 h hφ hacc (ix1 r)
      = (Finset.univ : Finset (Fin 4096)).fold max Cert.Attn.floor (fun j => src (ix2 r j)) := by
  refine (Ideal.multiReduction_maximumf_single src _ h hφ hacc (ix1 r)).trans ?_
  refine congrArg (fun f : Fin 4096 → EReal => (Finset.univ : Finset (Fin 4096)).fold max Cert.Attn.floor f) ?_
  funext j
  refine congrArg src ?_
  funext ax; apply Fin.ext
  match ax with
  | ⟨0, _⟩ => rfl
  | ⟨1, _⟩ => rfl

/-- The sum along the second axis, at row r: the sum of that row. -/
theorem rowSum_apply (src : FVec Ideal S256x4096 .f32) (h : S256x4096.Reduces [1] S256) (hφ : FKind.Formats .f32)
    (hacc : (0x00000000#32 : BitVec 32) = FKind.add.neutral .f32 hφ) (r : Fin 256) :
    multiReduction .add [1] S256 src 0x00000000#32 h hφ hacc (ix1 r) = ∑ j : Fin 4096, src (ix2 r j) :=
  Cert.LibColumnLayout.multiReduction_add_rows_apply src _ h hφ hacc r

/-- A vector of 256 row values laid out as a column and spread along each row again reads, at (r, j), the value of
    row r. -/
theorem spread_apply (x : FVec Ideal S256 .f32) (hc : S256.ShapeCasts S256x1) (hb : S256x1.Broadcasts S256x4096)
    (r : Fin 256) (j : Fin 4096) :
    broadcastTo S256x4096 (shapeCast S256x1 x hc) hb (ix2 r j) = x (ix1 r) :=
  (Cert.LibColumnLayout.broadcastTo_a1_ab_apply _ hb r j).trans (Cert.LibColumnLayout.shapeCast_a_a1_apply x hc r 0)

/-! ## The weights of one row

  Here S is any 256 x 4096 array of scores and s r j names its entry (r, j). -/

section Weights
variable (S : FVec Ideal S256x4096 .f32) (s : Fin 256 → Fin 4096 → EReal) (hS : ∀ r j, S (ix2 r j) = s r j)
  (h : S256x4096.Reduces [1] S256) (hφ : FKind.Formats .f32)
  (hmax : (0xFF800000#32 : BitVec 32) = FKind.maximumf.neutral .f32 hφ)
  (hadd : (0x00000000#32 : BitVec 32) = FKind.add.neutral .f32 hφ)
  (hc : S256.ShapeCasts S256x1) (hb : S256x1.Broadcasts S256x4096)

/-- The largest score of row r, from the floor value. -/
def top (s : Fin 256 → Fin 4096 → EReal) (r : Fin 256) : EReal :=
  (Finset.univ : Finset (Fin 4096)).fold max Cert.Attn.floor (fun j => s r j)

include hS in
/-- The row maximum spread along the row is the largest score of the row. -/
theorem topSpread_apply (r : Fin 256) (j : Fin 4096) :
    broadcastTo S256x4096 (shapeCast S256x1 (multiReduction .maximumf [1] S256 S 0xFF800000#32 h hφ hmax) hc) hb (ix2 r j)
      = top s r :=
  (spread_apply _ hc hb r j).trans ((rowMax_apply S h hφ hmax r).trans
    (congrArg (fun f : Fin 4096 → EReal => (Finset.univ : Finset (Fin 4096)).fold max Cert.Attn.floor f) (funext (hS r))))

/-- The exponential of a difference of arrays, at an index. -/
theorem expSub_apply (A B : FVec Ideal S256x4096 .f32) (i : S256x4096.Idx) : exp (subf A B) i = Ideal.exp (A i - B i) := rfl

include hS in
/-- The unnormalised weight: the exponential of the score less the row's largest. -/
theorem weight_apply (r : Fin 256) (j : Fin 4096) :
    exp (subf S (broadcastTo S256x4096 (shapeCast S256x1 (multiReduction .maximumf [1] S256 S 0xFF800000#32 h hφ hmax) hc) hb)) (ix2 r j)
      = Ideal.exp (s r j - top s r) :=
  (expSub_apply _ _ _).trans (congrArg Ideal.exp (congrArg₂ (· - ·) (hS r j) (topSpread_apply S s hS h hφ hmax hc hb r j)))

include hS in
/-- The normalised weight, rounded to the narrower format (which changes nothing on the extended reals): the weight over
    the sum of the row's weights. -/
theorem prob_apply (hlt : FTy.bits .bf16 < FTy.bits .f32) (r : Fin 256) (j : Fin 4096) :
    truncf .bf16 (divf
        (exp (subf S (broadcastTo S256x4096 (shapeCast S256x1 (multiReduction .maximumf [1] S256 S 0xFF800000#32 h hφ hmax) hc) hb)))
        (broadcastTo S256x4096 (shapeCast S256x1 (multiReduction .add [1] S256
          (exp (subf S (broadcastTo S256x4096 (shapeCast S256x1 (multiReduction .maximumf [1] S256 S 0xFF800000#32 h hφ hmax) hc) hb)))
          0x00000000#32 h hφ hadd) hc) hb)) hlt (ix2 r j)
      = Ideal.div (Ideal.exp (s r j - top s r)) (∑ j' : Fin 4096, Ideal.exp (s r j' - top s r)) :=
  (truncf_apply _ hlt _).trans ((divf_apply _ _ _).trans (congrArg₂ Ideal.div (weight_apply S s hS h hφ hmax hc hb r j)
    ((spread_apply _ hc hb r j).trans ((rowSum_apply _ h hφ hadd r).trans
      (Finset.sum_congr rfl fun j' _ => weight_apply S s hS h hφ hmax hc hb r j')))))

end Weights

/-! ## One head on a tile of query rows -/

/-- The score of query row r against key row j. -/
def score (qb : Vec Ideal S1x256x64 .bf16) (kb : Vec Ideal S1x4096x64 .bf16) (r : Fin 256) (j : Fin 4096) : EReal :=
  (∑ e : Fin 64, qb (ix3 0 r e) * kb (ix3 0 j e)) * Cert.Attn.scale

/-- The unnormalised weight of key row j for query row r. -/
def weight (qb : Vec Ideal S1x256x64 .bf16) (kb : Vec Ideal S1x4096x64 .bf16) (r : Fin 256) (j : Fin 4096) : EReal :=
  Ideal.exp (score qb kb r j - top (score qb kb) r)

/-- The scaled product of the queries with the transposed keys, at (r, j), is the score. -/
theorem scores_apply (qb : Vec Ideal S1x256x64 .bf16) (kb : Vec Ideal S1x4096x64 .bf16)
    (hq : S1x256x64.ShapeCasts S256x64) (hk : S1x4096x64.ShapeCasts S4096x64) (r : Fin 256) (j : Fin 4096) :
    mulf (F := Ideal) (matmul (F := Ideal) (φ₁ := .bf16) (φ₂ := .bf16) dotQK none (shapeCast S256x64 qb hq) (shapeCast S4096x64 kb hk)
          (constant (F := Ideal) S256x4096 .f32 0x00000000#32))
        (broadcast S256x4096 (Scalar.ofBits (F := Ideal) .f32 0x3E000000#32)) (ix2 r j)
      = score qb kb r j :=
  (mulf_apply _ _ _).trans (congrArg₂ (· * ·)
    ((qk_apply _ _ r j).trans (Finset.sum_congr rfl fun e _ =>
      congrArg₂ (· * ·) (shapeCast_1ab_ab_apply qb hq r e) (shapeCast_1ab_ab_apply kb hk j e)))
    scale_eq)

/-- The product of an array of weights with the values, at (r, d). -/
theorem pv_apply (p : FVec Ideal S256x4096 .bf16) (v : FVec Ideal S4096x64 .bf16) (r : Fin 256) (d : Fin 64) :
    matmul dot_S256x4096_S4096x64_S256x64_1_0_0_1_n_n none p v (constant S256x64 .f32 0x00000000#32) (ix2 r d)
      = ∑ j : Fin 4096, p (ix2 r j) * v (ix2 j d) :=
  PlainMatmul.plain_matmul_zero_apply 256 4096 64 none p v r d

/-- ONE HEAD AT AN ENTRY: row r, lane d of the head's output is the sum over the key rows j of the normalised weight of
    j for r times the value at (j, d). -/
theorem head_apply (qb : Vec Ideal S1x256x64 .bf16) (kb vb : Vec Ideal S1x4096x64 .bf16) (r : Fin 256) (d : Fin 64) :
    k1_pay3 (F := Ideal) qb kb vb (ix2 r d)
      = ∑ j : Fin 4096, Ideal.div (weight qb kb r j) (∑ j' : Fin 4096, weight qb kb r j') * vb (ix3 0 j d) := by
  unfold k1_pay3
  refine (congrFun (shapeCast_self _ _) (ix2 r d)).trans ?_
  refine (pv_apply _ _ r d).trans ?_
  refine Finset.sum_congr rfl fun j _ => congrArg₂ (· * ·) ?_ (shapeCast_1ab_ab_apply vb _ j d)
  exact prob_apply _ (score qb kb) (scores_apply qb kb _ _) _ _ _ _ _ _ _ r j

/-! ## The output projection -/

/-- THE PROJECTION AT AN ENTRY: the merged heads' row r times column c of the weights, plus the residual entry. -/
theorem project_apply (slab : Vec Ideal S256x512 .f32) (wo : Vec Ideal S512x512 .bf16) (xb : Vec Ideal S1x256x512 .f32)
    (r : Fin 256) (c : Fin 512) :
    k1_pay2 (F := Ideal) slab wo xb (ix3 0 r c) = (∑ e : Fin 512, slab (ix2 r e) * wo (ix2 e c)) + xb (ix3 0 r c) := by
  unfold k1_pay2
  refine (shapeCast_ab_1ab_apply _ _ 0 r c).trans ?_
  refine (addf_apply _ _ _).trans (congrArg₂ (· + ·) ?_ (shapeCast_1ab_ab_apply xb _ r c))
  refine (PlainMatmul.plain_matmul_zero_apply 256 512 512 none _ _ r c).trans ?_
  exact Finset.sum_congr rfl fun e _ => congrArg₂ (· * ·) (truncf_apply slab _ _) (congrFun (shapeCast_self wo _) (ix2 e c))

end Cert.KernelIdeal.HeadValue

end
-- ==== Proof.SpecCongr.lean ====
/-
  The attention functions depend only on the rows they read.

  Head `h`'s score of position `n` against position `j` in batch `b` reads row `n` of the query array and row `j` of
  the key array of that batch, and nothing else; so the row maximum, the weights, the normaliser and the head's output at
  position `n` read row `n` of the queries and every row of that batch's keys and values. Two triples of arrays that
  agree on those rows (possibly at different batch and position labels) give the same values. This is what lets a tile of
  256 query rows, which sees only its own rows, be compared with the whole arrays.
-/
import proofs.«151363_j47270410060360_2_alg».proof.Proof.Spec

noncomputable section

open scoped BigOperators
open Idealize.ShloMosaic

namespace Cert.Attn

variable {q q' k k' v v' : Act} {b b' : Fin 2} {n n' : Fin 4096}

theorem score_congr (h : Fin 8) (hq : ∀ e, q b n e = q' b' n' e) (hk : ∀ j e, k b j e = k' b' j e) (j : Fin 4096) :
    score q k b h n j = score q' k' b' h n' j := by
  unfold score
  exact congrArg (· * scale) (Finset.sum_congr rfl fun d _ => by rw [hq, hk])

theorem rowMax_congr (h : Fin 8) (hq : ∀ e, q b n e = q' b' n' e) (hk : ∀ j e, k b j e = k' b' j e) :
    rowMax q k b h n = rowMax q' k' b' h n' := by
  unfold rowMax
  exact congrArg ((Finset.univ : Finset (Fin 4096)).fold max floor) (funext fun j => score_congr h hq hk j)

theorem weight_congr (h : Fin 8) (hq : ∀ e, q b n e = q' b' n' e) (hk : ∀ j e, k b j e = k' b' j e) (j : Fin 4096) :
    weight q k b h n j = weight q' k' b' h n' j := by
  unfold weight
  rw [score_congr h hq hk j, rowMax_congr h hq hk]

theorem denom_congr (h : Fin 8) (hq : ∀ e, q b n e = q' b' n' e) (hk : ∀ j e, k b j e = k' b' j e) :
    denom q k b h n = denom q' k' b' h n' := by
  unfold denom
  exact Finset.sum_congr rfl fun j _ => weight_congr h hq hk j

theorem headOut_congr (h : Fin 8) (hq : ∀ e, q b n e = q' b' n' e) (hk : ∀ j e, k b j e = k' b' j e)
    (hv : ∀ j e, v b j e = v' b' j e) (d : Fin 64) :
    headOut q k v b h n d = headOut q' k' v' b' h n' d := by
  unfold headOut
  exact Finset.sum_congr rfl fun j _ => by rw [weight_congr h hq hk j, denom_congr h hq hk, hv]

theorem merged_congr (hq : ∀ e, q b n e = q' b' n' e) (hk : ∀ j e, k b j e = k' b' j e)
    (hv : ∀ j e, v b j e = v' b' j e) (e : Fin 512) :
    merged q k v b n e = merged q' k' v' b' n' e :=
  headOut_congr (headOf e) hq hk hv (laneOf e)

end Cert.Attn

end
-- ==== Proof.AttnTile.lean ====
/-
  One tile of the attention launch, entry by entry, in the specification's terms.

  A grid point sees 256 query rows of one batch and all 4096 key and value rows of that batch. Read as arrays labelled
  like the whole ones (the query tile's row `r` standing at every batch and position label, the key and value blocks'
  rows at every batch label), the scratch at row `r`, lane `e` is the specification's merged head output there, and
  the tile's entry at row `r`, feature `c` is the specification's projected sum plus the residual entry.
-/
import proofs.«151363_j47270410060360_2_alg».proof.Proof.AttnBody
import proofs.«151363_j47270410060360_2_alg».proof.Proof.HeadValue
import proofs.«151363_j47270410060360_2_alg».proof.Proof.SpecCongr

noncomputable section

open scoped BigOperators

namespace Cert.KernelIdeal.AttnTile

open Cert.KernelIdeal Cert.KernelIdeal.Gen Cert.KernelIdeal.AttnBody
open Idealize.ShloMosaic Idealize.ShloMosaic.ValueIdx
open Cert.Attn (lane headOf laneOf)

/-- Row `r` of a query tile, standing at every batch and position label. -/
def qAct (qb : Vec Ideal S1x256x512 .bf16) (r : Fin 256) : Cert.Attn.Act := fun _ _ e => qb (ix3 0 r e)

/-- A key or value block, its rows standing at every batch label. -/
def kvAct (kb : Vec Ideal S1x4096x512 .bf16) : Cert.Attn.Act := fun _ j e => kb (ix3 0 j e)

/-- The scratch at row `r`, lane `e`: head `e / 64`'s attention at lane `e % 64`. -/
theorem slab_at (qb : Vec Ideal S1x256x512 .bf16) (kb vb : Vec Ideal S1x4096x512 .bf16) (r : Fin 256) (e : Fin 512) :
    slabFn qb kb vb (ix2 r e) = Cert.Attn.merged (qAct qb r) (kvAct kb) (kvAct vb) 0 0 e := by
  rw [slabFn_at qb kb vb (headOf e) (ix2 r e) r (laneOf e) rfl
    (by show e.val = 64 * (e.val / 64) + e.val % 64; omega)]
  rw [HeadValue.head_apply]
  rfl

/-- The tile's entry at row `r`, feature `c`. -/
theorem tile_at (qb : Vec Ideal S1x256x512 .bf16) (kb vb : Vec Ideal S1x4096x512 .bf16) (wo : Vec Ideal S512x512 .bf16)
    (xb : Vec Ideal S1x256x512 .f32) (r : Fin 256) (c : Fin 512) :
    k1_pay2 (F := Ideal) (slabFn qb kb vb) wo xb (ix3 0 r c)
      = (∑ e : Fin 512, Cert.Attn.merged (qAct qb r) (kvAct kb) (kvAct vb) 0 0 e * wo (ix2 e c)) + xb (ix3 0 r c) := by
  rw [HeadValue.project_apply]
  simp only [slab_at]

/-- An array of activations read by its three coordinates. -/
def actOf (A : S2x4096x512.Idx → EReal) : Cert.Attn.Act := fun b n e => A (ix3 b n e)

/-- What the result array holds at an index, from the five arrays the launch reads: the three projected arrays, the
    output weights already transposed (row = input feature), and the residual array. -/
def resultOf (Qa Ka Va : S2x4096x512.Idx → EReal) (WoT : S512x512.Idx → EReal) (Xa : S2x4096x512.Idx → EReal) :
    S2x4096x512.Idx → EReal := fun i =>
  (∑ e : Fin 512, Cert.Attn.merged (actOf Qa) (actOf Ka) (actOf Va) (i 0) (i 1) e * WoT (ix2 e (i 2))) + Xa i

/-- A tile's entry is the result at the array index it is written to: the tile of batch `b` whose row `r` is
    position `n` reads row `n` of the query array, every row of that batch's key and value arrays, the whole weight
    matrix and the residual entry. -/
theorem point_entry (Qa Ka Va : S2x4096x512.Idx → EReal) (WoT : S512x512.Idx → EReal) (Xa : S2x4096x512.Idx → EReal)
    (qb : Vec Ideal S1x256x512 .bf16) (kb vb : Vec Ideal S1x4096x512 .bf16) (wo : Vec Ideal S512x512 .bf16)
    (xb : Vec Ideal S1x256x512 .f32) (b : Fin 2) (n : Fin 4096) (r : Fin 256) (c : Fin 512)
    (hq : ∀ e : Fin 512, qb (ix3 0 r e) = Qa (ix3 b n e))
    (hk : ∀ (j : Fin 4096) (e : Fin 512), kb (ix3 0 j e) = Ka (ix3 b j e))
    (hv : ∀ (j : Fin 4096) (e : Fin 512), vb (ix3 0 j e) = Va (ix3 b j e))
    (hwo : ∀ e : Fin 512, wo (ix2 e c) = WoT (ix2 e c))
    (hx : xb (ix3 0 r c) = Xa (ix3 b n c)) :
    k1_pay2 (F := Ideal) (slabFn qb kb vb) wo xb (ix3 0 r c) = resultOf Qa Ka Va WoT Xa (ix3 b n c) := by
  rw [tile_at, hx]
  show _ = (∑ e : Fin 512, Cert.Attn.merged (actOf Qa) (actOf Ka) (actOf Va) b n e * WoT (ix2 e c)) + Xa (ix3 b n c)
  refine congrArg (· + Xa (ix3 b n c)) (Finset.sum_congr rfl fun e _ => ?_)
  rw [hwo e, Cert.Attn.merged_congr (q' := actOf Qa) (k' := actOf Ka) (v' := actOf Va) (b' := b) (n' := n)
    (fun e' => hq e') (fun j e' => hk j e') (fun j e' => hv j e') e]

end Cert.KernelIdeal.AttnTile

end
-- ==== Proof.AttnGrid.lean ====
/-
  The geometry of the second launch: a grid of 2 × 16 points, point (b, g) producing rows 256·g … 256·g + 255 of
  batch `b` of the result.

  At point (b, g) the query block and the block of the activations are the 256 rows the result block has; the key
  and value blocks are the whole batch `b` (all 4096 rows); the output weights are one block. Each index map is a
  function of the point alone, so these relations are decided over the 32 points. The result's blocks are written
  back at every point, they are rectangles of 1 × 256 × 512 entries at offset (b, 256·g, 0), every (b, g) is some
  point's, and so every entry (b, n, e) of the result lies in the block of the point with block index
  (b, n / 256, 0).
-/
import proofs.«151363_j47270410060360_2_alg».proof.Proof.Gen.KernelIdeal.Frame
import Idealize.ShloMosaic.Lib.Pipeline.Value

noncomputable section

namespace Cert.KernelIdeal.AttnGrid

open Cert.KernelIdeal Cert.KernelIdeal.Gen Idealize.ShloMosaic Idealize.ShloMosaic.TcCoe Idealize.SL.Sem

/-- The block indices of the six windows at a point, against the result's: the query block and the activations'
    block move with the result block; the key, value and weight blocks do not depend on the row block; the last
    axis is never split; the result's block index is (b, g, 0) with `b ≤ 1` and `g ≤ 15`. -/
theorem block_indices : ∀ t : Fin cfg1.N,
    win1_0.index t (0 : Fin 3) = win1_5.index t (0 : Fin 3)
    ∧ win1_0.index t (1 : Fin 3) = win1_5.index t (1 : Fin 3)
    ∧ win1_0.index t (2 : Fin 3) = 0
    ∧ win1_1.index t (0 : Fin 3) = win1_5.index t (0 : Fin 3)
    ∧ win1_1.index t (1 : Fin 3) = 0
    ∧ win1_1.index t (2 : Fin 3) = 0
    ∧ win1_2.index t (0 : Fin 3) = win1_5.index t (0 : Fin 3)
    ∧ win1_2.index t (1 : Fin 3) = 0
    ∧ win1_2.index t (2 : Fin 3) = 0
    ∧ win1_3.index t (0 : Fin 2) = 0
    ∧ win1_3.index t (1 : Fin 2) = 0
    ∧ win1_4.index t (0 : Fin 3) = win1_5.index t (0 : Fin 3)
    ∧ win1_4.index t (1 : Fin 3) = win1_5.index t (1 : Fin 3)
    ∧ win1_4.index t (2 : Fin 3) = 0
    ∧ win1_5.index t (0 : Fin 3) ≤ 1
    ∧ win1_5.index t (1 : Fin 3) ≤ 15
    ∧ win1_5.index t (2 : Fin 3) = 0 :=
  (by decide +kernel : ∀ t : Fin grid1.N, _)

/-- Every batch `b` and row block `g` is the result block of some point. -/
theorem block_onto : ∀ (b : Fin 2) (g : Fin 16), ∃ t : Fin cfg1.N, win1_5.index t = ![b.val, g.val, 0] :=
  (by decide +kernel : ∀ (b : Fin 2) (g : Fin 16), ∃ t : Fin grid1.N, win1_5.index t = ![b.val, g.val, 0])

/-- The result's block is written back at every point. -/
theorem result_flushed (t : Fin cfg1.N) : (cfg1.win 5).flush t = true := flush1_5 t

/-- An entry of the result is in point `t`'s block iff each coordinate is in the block's range on its axis. -/
theorem mem_result_block (t : Fin cfg1.N) (i : S2x4096x512.Idx) :
    i ∈ ((cfg1.win 5).blk t).view.set ↔ ∀ a : Fin 3, win1_5.index t a * S1x256x512.size a ≤ (i a).val
      ∧ (i a).val < win1_5.index t a * S1x256x512.size a + S1x256x512.size a := by
  show i ∈ ((View.whole main_v9).slice (win1_5.rect t)).set ↔ _
  rw [View.set_slice_whole, Rect.mem_set_unit]
  exact Iff.rfl

/-- Entry (b, n, e) of the result lies in the block of the point whose block index is (b, n / 256, 0). -/
theorem result_covered_at (i : S2x4096x512.Idx) :
    ∃ t : Fin cfg1.N, (cfg1.win 5).flush t = true ∧ i ∈ ((cfg1.win 5).blk t).view.set := by
  have hi0 : (i 0).val < 2 := (i 0).isLt
  have hi1 : (i 1).val < 4096 := (i 1).isLt
  have hi2 : (i 2).val < 512 := (i 2).isLt
  obtain ⟨t, ht⟩ := block_onto ⟨(i 0).val, hi0⟩ ⟨(i 1).val / 256, by omega⟩
  have q0 : win1_5.index t (0 : Fin 3) = (i 0).val := congrFun ht 0
  have q1 : win1_5.index t (1 : Fin 3) = (i 1).val / 256 := congrFun ht 1
  have q2 : win1_5.index t (2 : Fin 3) = 0 := congrFun ht 2
  refine ⟨t, flush1_5 t, ?_⟩
  rw [mem_result_block]
  intro a
  match a with
  | ⟨0, _⟩ =>
    show win1_5.index t (0 : Fin 3) * 1 ≤ (i 0).val ∧ (i 0).val < win1_5.index t (0 : Fin 3) * 1 + 1; omega
  | ⟨1, _⟩ =>
    show win1_5.index t (1 : Fin 3) * 256 ≤ (i 1).val ∧ (i 1).val < win1_5.index t (1 : Fin 3) * 256 + 256; omega
  | ⟨2, _⟩ =>
    show win1_5.index t (2 : Fin 3) * 512 ≤ (i 2).val ∧ (i 2).val < win1_5.index t (2 : Fin 3) * 512 + 512; omega

/-- The result's blocks cover the whole array: every entry is in some written-back block. -/
theorem result_covered (c : Dev nD) :
    ∀ i : ((cfg1.win 5).arr.view.loc (c.tc : Thread nD τ)).2.ty.Idx,
      ∃ t : Fin cfg1.N, (cfg1.win 5).flush t = true ∧ i ∈ ((cfg1.win 5).blk t).view.set :=
  fun i => result_covered_at i

end Cert.KernelIdeal.AttnGrid

end
-- ==== Proof.AttnArray.lean ====
/-
  The result array after the attention launch, as one function of the five arrays the launch reads.

  Point (b, g) of the 2 × 16 grid writes back rows 256·g … 256·g + 255 of batch `b`. Its query block and its block of
  the residual array are those same rows, its key and value blocks are the whole batch, and the weights' block is the
  whole matrix; so the entry it writes at (b, 256·g + r, c) is the result function of the five arrays at that index. The
  written-back blocks cover the array, so the array ends holding the result function everywhere.
-/
import proofs.«151363_j47270410060360_2_alg».proof.Proof.AttnTile
import proofs.«151363_j47270410060360_2_alg».proof.Proof.AttnGrid

set_option maxRecDepth 16384

noncomputable section

open scoped BigOperators

namespace Cert.KernelIdeal.AttnArray

open Cert.KernelIdeal Cert.KernelIdeal.Gen Cert.KernelIdeal.AttnBody Cert.KernelIdeal.AttnTile
open Idealize.ShloMosaic Idealize.ShloMosaic.TcCoe Idealize.ShloMosaic.ValueIdx
open Idealize.SL Idealize.SL.Sem

variable (V : (c : Dev nD) → (b : Ref sig .tc) → Buf (Elt Ideal) ((c : Thread nD τ).loc b)) (c : Dev nD)

/-- What point `t` writes back is block `t` of the result function of the arrays as the launch finds them. -/
theorem written_back (t : Fin cfg1.N) :
    (dat1 V c).flushed 5 t = ((cfg1.win 5).blk t).view.read (Elt Ideal) (resultOf (V c (Pipeline.arrRef spec1 0) : S2x4096x512.Idx → EReal) (V c (Pipeline.arrRef spec1 1) : S2x4096x512.Idx → EReal) (V c (Pipeline.arrRef spec1 2) : S2x4096x512.Idx → EReal) (V c (Pipeline.arrRef spec1 3) : S512x512.Idx → EReal) (V c (Pipeline.arrRef spec1 4) : S2x4096x512.Idx → EReal)) := by
  show (cfg1.win 5).cut (grid1.coords t) ((dat1 V c).after 5 t) = _
  rw [after1_5]
  unfold outsAt1
  rw [body_out]
  obtain ⟨e00, e01, e02, e10, e11, e12, e20, e21, e22, e30, e31, e40, e41, e42, e50, e51, e52⟩ := AttnGrid.block_indices t
  funext y
  obtain ⟨u, r, cc, rfl⟩ : ∃ (u : Fin 1) (r : Fin 256) (cc : Fin 512), y = ix3 u r cc := ⟨y 0, y 1, y 2, eq_ix3 y⟩
  obtain rfl : u = 0 := Subsingleton.elim u 0
  have hr : r.val < 256 := r.isLt
  have hcc : cc.val < 512 := cc.isLt
  have hb : win1_5.index t (0 : Fin 3) < 2 := by omega
  have hn : win1_5.index t (1 : Fin 3) * 256 + r.val < 4096 := by omega
  have hemb : ((cfg1.win 5).blk t).view.emb (ix3 (0 : Fin 1) r cc)
      = ix3 (⟨win1_5.index t (0 : Fin 3), hb⟩ : Fin 2) (⟨win1_5.index t (1 : Fin 3) * 256 + r.val, hn⟩ : Fin 4096) cc :=
    funext fun a => Fin.ext (by
      match a with
      | ⟨0, _⟩ => show win1_5.index t (0 : Fin 3) * 1 + 1 * 0 = win1_5.index t (0 : Fin 3); omega
      | ⟨1, _⟩ => show win1_5.index t (1 : Fin 3) * 256 + 1 * r.val = win1_5.index t (1 : Fin 3) * 256 + r.val; omega
      | ⟨2, _⟩ => show win1_5.index t (2 : Fin 3) * 512 + 1 * cc.val = cc.val; omega)
  show k1_pay2 (F := Ideal) (slabFn (iblk1 V c 0 t) (iblk1 V c 1 t) (iblk1 V c 2 t)) (iblk1 V c 3 t) (iblk1 V c 4 t) (ix3 (0 : Fin 1) r cc)
    = (resultOf (V c (Pipeline.arrRef spec1 0) : S2x4096x512.Idx → EReal) (V c (Pipeline.arrRef spec1 1) : S2x4096x512.Idx → EReal) (V c (Pipeline.arrRef spec1 2) : S2x4096x512.Idx → EReal) (V c (Pipeline.arrRef spec1 3) : S512x512.Idx → EReal) (V c (Pipeline.arrRef spec1 4) : S2x4096x512.Idx → EReal)) (((cfg1.win 5).blk t).view.emb (ix3 (0 : Fin 1) r cc))
  rw [hemb]
  refine point_entry _ _ _ _ _ (iblk1 V c 0 t) (iblk1 V c 1 t) (iblk1 V c 2 t) (iblk1 V c 3 t) (iblk1 V c 4 t) _ _ r cc ?_ ?_ ?_ ?_ ?_
  · intro e
    have he : e.val < 512 := e.isLt
    show V c (Pipeline.arrRef spec1 0) (((cfg1.win 0).blk t).view.emb (ix3 (0 : Fin 1) r e)) = V c (Pipeline.arrRef spec1 0) _
    refine congrArg (V c (Pipeline.arrRef spec1 0)) (funext fun a => Fin.ext ?_)
    match a with
    | ⟨0, _⟩ => show win1_0.index t (0 : Fin 3) * 1 + 1 * 0 = win1_5.index t (0 : Fin 3); omega
    | ⟨1, _⟩ => show win1_0.index t (1 : Fin 3) * 256 + 1 * r.val = win1_5.index t (1 : Fin 3) * 256 + r.val; omega
    | ⟨2, _⟩ => show win1_0.index t (2 : Fin 3) * 512 + 1 * e.val = e.val; omega
  · intro j e
    have hj : j.val < 4096 := j.isLt
    have he : e.val < 512 := e.isLt
    show V c (Pipeline.arrRef spec1 1) (((cfg1.win 1).blk t).view.emb (ix3 (0 : Fin 1) j e)) = V c (Pipeline.arrRef spec1 1) _
    refine congrArg (V c (Pipeline.arrRef spec1 1)) (funext fun a => Fin.ext ?_)
    match a with
    | ⟨0, _⟩ => show win1_1.index t (0 : Fin 3) * 1 + 1 * 0 = win1_5.index t (0 : Fin 3); omega
    | ⟨1, _⟩ => show win1_1.index t (1 : Fin 3) * 4096 + 1 * j.val = j.val; omega
    | ⟨2, _⟩ => show win1_1.index t (2 : Fin 3) * 512 + 1 * e.val = e.val; omega
  · intro j e
    have hj : j.val < 4096 := j.isLt
    have he : e.val < 512 := e.isLt
    show V c (Pipeline.arrRef spec1 2) (((cfg1.win 2).blk t).view.emb (ix3 (0 : Fin 1) j e)) = V c (Pipeline.arrRef spec1 2) _
    refine congrArg (V c (Pipeline.arrRef spec1 2)) (funext fun a => Fin.ext ?_)
    match a with
    | ⟨0, _⟩ => show win1_2.index t (0 : Fin 3) * 1 + 1 * 0 = win1_5.index t (0 : Fin 3); omega
    | ⟨1, _⟩ => show win1_2.index t (1 : Fin 3) * 4096 + 1 * j.val = j.val; omega
    | ⟨2, _⟩ => show win1_2.index t (2 : Fin 3) * 512 + 1 * e.val = e.val; omega
  · intro e
    have he : e.val < 512 := e.isLt
    show V c (Pipeline.arrRef spec1 3) (((cfg1.win 3).blk t).view.emb (ix2 e cc)) = V c (Pipeline.arrRef spec1 3) _
    refine congrArg (V c (Pipeline.arrRef spec1 3)) (funext fun a => Fin.ext ?_)
    match a with
    | ⟨0, _⟩ => show win1_3.index t (0 : Fin 2) * 512 + 1 * e.val = e.val; omega
    | ⟨1, _⟩ => show win1_3.index t (1 : Fin 2) * 512 + 1 * cc.val = cc.val; omega
  · show V c (Pipeline.arrRef spec1 4) (((cfg1.win 4).blk t).view.emb (ix3 (0 : Fin 1) r cc)) = V c (Pipeline.arrRef spec1 4) _
    refine congrArg (V c (Pipeline.arrRef spec1 4)) (funext fun a => Fin.ext ?_)
    match a with
    | ⟨0, _⟩ => show win1_4.index t (0 : Fin 3) * 1 + 1 * 0 = win1_5.index t (0 : Fin 3); omega
    | ⟨1, _⟩ => show win1_4.index t (1 : Fin 3) * 256 + 1 * r.val = win1_5.index t (1 : Fin 3) * 256 + r.val; omega
    | ⟨2, _⟩ => show win1_4.index t (2 : Fin 3) * 512 + 1 * cc.val = cc.val; omega

/-- The result array after the launch holds the result function of the five arrays the launch found. -/
theorem result_array :
    (dat1 V c).arrAt 5 cfg1.N = (resultOf (V c (Pipeline.arrRef spec1 0) : S2x4096x512.Idx → EReal) (V c (Pipeline.arrRef spec1 1) : S2x4096x512.Idx → EReal) (V c (Pipeline.arrRef spec1 2) : S2x4096x512.Idx → EReal) (V c (Pipeline.arrRef spec1 3) : S512x512.Idx → EReal) (V c (Pipeline.arrRef spec1 4) : S2x4096x512.Idx → EReal)) :=
  (dat1 V c).arrAt_eq_of_cover 5 _ (fun t _ => written_back V c t) (AttnGrid.result_covered c)

end Cert.KernelIdeal.AttnArray

end
-- ==== Proof.RefValue.lean ====
/-
  The reference program computes the attention specification.

  The program is read one operation at a time, each at an index written by its coordinates: the three linear
  projections are `Attn.proj`; the reshape to 8 heads of 64 lanes followed by the exchange of the position and head
  axes reads feature `64·h + d` of position `n` at (b, h, n, d); the batched product of the first two, times the
  scale, is the score; the maximum over the last axis, started from the floor value, is the row maximum, and the
  later maximum with the same floor value changes nothing because a maximum started from a value is at least that
  value; the exponential of the difference is the weight, its sum over the last axis (started from zero) the
  normaliser, and the quotient times the third projection, summed over positions, is one head's output; exchanging
  the axes back and merging heads and lanes puts head `e / 64`, lane `e % 64` at feature `e`; the last product with
  the output weights plus the activations is the result.
-/
import proofs.«151363_j47270410060360_2_alg».proof.Proof.Gen.ReferenceIdeal.Read
import proofs.«151363_j47270410060360_2_alg».proof.Proof.Spec

noncomputable section

open scoped BigOperators
open Idealize.ShloMosaic Idealize.ShloMosaic.ValueIdx
open Cert.ReferenceIdeal Cert.ReferenceIdeal.Gen Cert.ReferenceIdeal.Read

namespace Cert.ReferenceIdeal.RefValue

/-- The activations and a weight matrix, as the program types them: functions from an index to an extended real. -/
abbrev XArr : Type := (⟨S2x4096x512, .f32⟩ : BufTy).Contents (Elt Ideal)
abbrev WArr : Type := (⟨S512x512, .f32⟩ : BufTy).Contents (Elt Ideal)

/-! ## The projections -/

/-- A projection at (b, n, e) is the sum over the input features `c` of `x[b,n,c] · W[e,c]`. -/
theorem proj_q (x0 : XArr) (x1 : WArr) (b : Fin 2) (n : Fin 4096) (e : Fin 512) :
    val_main_v0 (F := Ideal) x0 x1 (ix3 b n e) = Attn.proj x0 x1 b n e := by
  rw [val_main_v0_apply]
  unfold Attn.proj
  refine Finset.sum_congr rfl fun k _ => ?_
  have el : lidx_main_v0 (ix3 b n e) k = ix3 b n k :=
    funext fun a => Fin.ext (by match a with | ⟨0, _⟩ => rfl | ⟨1, _⟩ => rfl | ⟨2, _⟩ => rfl)
  have er : ridx_main_v0 (ix3 b n e) k = ix2 e k :=
    funext fun a => Fin.ext (by match a with | ⟨0, _⟩ => rfl | ⟨1, _⟩ => rfl)
  rw [el, er]

/-- Split into heads and with the position and head axes exchanged, a projection at (b, h, n, d) is the projection
    at position `n`, feature `64·h + d`: the row-major offset `((b·4096 + n)·8 + h)·64 + d` is
    `(b·4096 + n)·512 + (64·h + d)`. -/
theorem heads_q (x0 : XArr) (x1 : WArr) (b : Fin 2) (h : Fin 8) (n : Fin 4096) (d : Fin 64) :
    val_main_v2 (F := Ideal) x0 x1 (ix4 b h n d) = Attn.proj x0 x1 b n (Attn.lane h d) := by
  rw [val_main_v2_apply, val_main_v1_apply]
  have e : idx_main_v1 (idx_main_v2 (ix4 b h n d)) = ix3 b n (Attn.lane h d) := by
    funext a; apply Fin.ext
    have hb := b.isLt; have hh := h.isLt; have hn := n.isLt; have hd := d.isLt
    match a with
    | ⟨0, _⟩ => show (((b.val * 4096 + n.val) * 8 + h.val) * 64 + d.val) / 2097152 = b.val; omega
    | ⟨1, _⟩ => show (((b.val * 4096 + n.val) * 8 + h.val) * 64 + d.val) / 512 % 4096 = n.val; omega
    | ⟨2, _⟩ => show (((b.val * 4096 + n.val) * 8 + h.val) * 64 + d.val) % 512 = 64 * h.val + d.val; omega
  rw [e, proj_q]

/-- The second and third projections are the same operations on another weight matrix. -/
theorem heads_k (x0 : XArr) (x2 : WArr) (b : Fin 2) (h : Fin 8) (n : Fin 4096) (d : Fin 64) :
    val_main_v5 (F := Ideal) x0 x2 (ix4 b h n d) = Attn.proj x0 x2 b n (Attn.lane h d) :=
  heads_q x0 x2 b h n d

theorem heads_v (x0 : XArr) (x3 : WArr) (b : Fin 2) (h : Fin 8) (n : Fin 4096) (d : Fin 64) :
    val_main_v8 (F := Ideal) x0 x3 (ix4 b h n d) = Attn.proj x0 x3 b n (Attn.lane h d) :=
  heads_q x0 x3 b h n d

/-! ## The scores -/

/-- The batched product of the first two projections over the 64 lanes, times the scale, is the score. -/
theorem score_eq (x0 : XArr) (x1 x2 : WArr) (b : Fin 2) (h : Fin 8) (n j : Fin 4096) :
    val_main_v11 (F := Ideal) x0 x1 x2 (ix4 b h n j)
      = Attn.score (Attn.proj x0 x1) (Attn.proj x0 x2) b h n j := by
  rw [val_main_v11_apply, val_main_v9_apply, val_main_v10_apply, val_main_cst_apply]
  unfold Attn.score Attn.scale
  rw [Ideal.mulf_def, Ideal.ofBits_def]
  refine congrArg (· * _) (Finset.sum_congr rfl fun k _ => ?_)
  have el : lidx_main_v9 (ix4 b h n j) k = ix4 b h n k :=
    funext fun a => Fin.ext (by match a with | ⟨0, _⟩ => rfl | ⟨1, _⟩ => rfl | ⟨2, _⟩ => rfl | ⟨3, _⟩ => rfl)
  have er : ridx_main_v9 (ix4 b h n j) k = ix4 b h j k :=
    funext fun a => Fin.ext (by match a with | ⟨0, _⟩ => rfl | ⟨1, _⟩ => rfl | ⟨2, _⟩ => rfl | ⟨3, _⟩ => rfl)
  rw [el, er, heads_q, heads_k]

/-! ## The row maximum -/

/-- Dropping the last of the four axes: the fact the library's reading of a one-axis reduce is stated over. -/
theorem reduces_last : S2x8x4096x4096.Reduces [3] S2x8x4096 := by decide

/-- The index (b, h, n) of the reduced array with `k` put back on the dropped axis is (b, h, n, k). -/
theorem lift_last (b : Fin 2) (h : Fin 8) (n : Fin 4096) (k : Fin (S2x8x4096x4096.size 3)) :
    reduces_last.lift (ix3 b h n) k = ix4 b h n (⟨k.val, k.isLt⟩ : Fin 4096) := by
  funext c; apply Fin.ext
  fin_cases c <;> rfl

/-- A reduce over the last axis with a maximum body is, at (b, h, n), the maximum over `k` of the entries
    (b, h, n, k), started from the initial value. -/
theorem hostMax_last (y : FVec Ideal S2x8x4096x4096 .f32) (init : FVec Ideal S_ .f32) (b : Fin 2) (h : Fin 8)
    (n : Fin 4096) :
    Host.reduce (FloatOps.maximumf (F := Ideal) (φ := .f32)) y init reducesTo_S2x8x4096x4096_S2x8x4096_d3 h_S_
        (ix3 b h n)
      = (Finset.univ : Finset (Fin 4096)).fold max (init (Shape.Idx.first h_S_)) (fun k => y (ix4 b h n k)) := by
  rw [Host.reduce_eq_fold_single (FloatOps.maximumf (F := Ideal) (φ := .f32)) y init
    reducesTo_S2x8x4096x4096_S2x8x4096_d3 reduces_last h_S_]
  have hf : (y ∘ reduces_last.lift (ix3 b h n)) = fun k : Fin 4096 => y (ix4 b h n k) :=
    funext fun k => congrArg y (lift_last b h n k)
  exact congrArg (fun f => Finset.fold max (init (Shape.Idx.first h_S_)) f (Finset.univ : Finset (Fin 4096))) hf

/-- The maximum over the last axis started from the floor value, at (b, h, n), is the largest score of row `n`. -/
theorem reduceMax_eq (x0 : XArr) (x1 x2 : WArr) (b : Fin 2) (h : Fin 8) (n : Fin 4096) :
    val_main_v12 (F := Ideal) x0 x1 x2 (ix3 b h n)
      = Attn.rowMax (Attn.proj x0 x1) (Attn.proj x0 x2) b h n := by
  unfold val_main_v12
  refine (hostMax_last (val_main_v11 (F := Ideal) x0 x1 x2) (val_main_cst_0 (F := Ideal)) b h n).trans ?_
  rw [val_main_cst_0_apply, Ideal.ofBits_def]
  unfold Attn.rowMax Attn.floor
  exact congrArg (fun f => Finset.fold max (Ideal.ofBits .f32 0xFF800000#32) f (Finset.univ : Finset (Fin 4096)))
    (funext fun k => score_eq x0 x1 x2 b h n k)
/-- A maximum started from a value is at least that value, so one more maximum with it changes nothing. -/
theorem rowMax_eq (x0 : XArr) (x1 x2 : WArr) (b : Fin 2) (h : Fin 8) (n : Fin 4096) :
    val_main_v14 (F := Ideal) x0 x1 x2 (ix3 b h n)
      = Attn.rowMax (Attn.proj x0 x1) (Attn.proj x0 x2) b h n := by
  rw [val_main_v14_apply, val_main_v13_apply, val_main_cst_1_apply, reduceMax_eq, Ideal.maximumf_def,
    Ideal.ofBits_def]
  refine max_eq_right ?_
  unfold Attn.rowMax Attn.floor
  exact (Finset.le_fold_max _).mpr (Or.inl le_rfl)

/-! ## The weights and the normaliser -/

/-- The exponential of a score minus its row's maximum. -/
theorem weight_eq (x0 : XArr) (x1 x2 : WArr) (b : Fin 2) (h : Fin 8) (n j : Fin 4096) :
    val_main_v18 (F := Ideal) x0 x1 x2 (ix4 b h n j)
      = Attn.weight (Attn.proj x0 x1) (Attn.proj x0 x2) b h n j := by
  rw [val_main_v18_apply, val_main_v17_apply, val_main_v16_apply, val_main_v15_apply]
  have e : idx_main_v15 (idx_main_v16 (ix4 b h n j)) = ix3 b h n :=
    funext fun a => Fin.ext (by match a with | ⟨0, _⟩ => rfl | ⟨1, _⟩ => rfl | ⟨2, _⟩ => rfl)
  rw [e, rowMax_eq, score_eq, Ideal.hostUnary_exp_def, Ideal.subf_def]
  rfl

/-- The sum of a row's weights; the zero it starts from adds nothing. -/
theorem denom_eq (x0 : XArr) (x1 x2 : WArr) (b : Fin 2) (h : Fin 8) (n : Fin 4096) :
    val_main_v19 (F := Ideal) x0 x1 x2 (ix3 b h n)
      = Attn.denom (Attn.proj x0 x1) (Attn.proj x0 x2) b h n := by
  rw [val_main_v19_apply, val_main_cst_2_apply, Ideal.ofBits_def, Ideal.ofBits_zero_f32, zero_add]
  unfold Attn.denom
  refine Finset.sum_congr rfl fun k _ => ?_
  have e : idx_main_v19 (ix3 b h n) k = ix4 b h n k :=
    funext fun a => Fin.ext (by match a with | ⟨0, _⟩ => rfl | ⟨1, _⟩ => rfl | ⟨2, _⟩ => rfl | ⟨3, _⟩ => rfl)
  rw [e, weight_eq]

/-- A weight divided by its row's normaliser. -/
theorem quot_eq (x0 : XArr) (x1 x2 : WArr) (b : Fin 2) (h : Fin 8) (n j : Fin 4096) :
    val_main_v22 (F := Ideal) x0 x1 x2 (ix4 b h n j)
      = Ideal.div (Attn.weight (Attn.proj x0 x1) (Attn.proj x0 x2) b h n j)
          (Attn.denom (Attn.proj x0 x1) (Attn.proj x0 x2) b h n) := by
  rw [val_main_v22_apply, val_main_v21_apply, val_main_v20_apply]
  have e : idx_main_v20 (idx_main_v21 (ix4 b h n j)) = ix3 b h n :=
    funext fun a => Fin.ext (by match a with | ⟨0, _⟩ => rfl | ⟨1, _⟩ => rfl | ⟨2, _⟩ => rfl)
  rw [e, denom_eq, weight_eq, Ideal.hostDivf_def]

/-! ## One head's output, the merged heads, and the result -/

/-- The batched product of the normalised weights with the third projection over the positions. -/
theorem headOut_eq (x0 : XArr) (x1 x2 x3 : WArr) (b : Fin 2) (h : Fin 8) (n : Fin 4096) (d : Fin 64) :
    val_main_v23 (F := Ideal) x0 x1 x2 x3 (ix4 b h n d)
      = Attn.headOut (Attn.proj x0 x1) (Attn.proj x0 x2) (Attn.proj x0 x3) b h n d := by
  rw [val_main_v23_apply]
  unfold Attn.headOut
  refine Finset.sum_congr rfl fun k _ => ?_
  have el : lidx_main_v23 (ix4 b h n d) k = ix4 b h n k :=
    funext fun a => Fin.ext (by match a with | ⟨0, _⟩ => rfl | ⟨1, _⟩ => rfl | ⟨2, _⟩ => rfl | ⟨3, _⟩ => rfl)
  have er : ridx_main_v23 (ix4 b h n d) k = ix4 b h k d :=
    funext fun a => Fin.ext (by match a with | ⟨0, _⟩ => rfl | ⟨1, _⟩ => rfl | ⟨2, _⟩ => rfl | ⟨3, _⟩ => rfl)
  rw [el, er, quot_eq, heads_v]

/-- With the axes exchanged back and heads and lanes merged, feature `e` of position `n` is lane `e % 64` of head
    `e / 64`: the row-major offset `(b·4096 + n)·512 + e` is `((b·4096 + n)·8 + e / 64)·64 + e % 64`. -/
theorem merged_eq (x0 : XArr) (x1 x2 x3 : WArr) (b : Fin 2) (n : Fin 4096) (e : Fin 512) :
    val_main_v25 (F := Ideal) x0 x1 x2 x3 (ix3 b n e)
      = Attn.merged (Attn.proj x0 x1) (Attn.proj x0 x2) (Attn.proj x0 x3) b n e := by
  rw [val_main_v25_apply, val_main_v24_apply]
  have hi : idx_main_v24 (idx_main_v25 (ix3 b n e)) = ix4 b (Attn.headOf e) n (Attn.laneOf e) := by
    funext a; apply Fin.ext
    have hb := b.isLt; have hn := n.isLt; have he := e.isLt
    match a with
    | ⟨0, _⟩ => show ((b.val * 4096 + n.val) * 512 + e.val) / 2097152 = b.val; omega
    | ⟨1, _⟩ => show ((b.val * 4096 + n.val) * 512 + e.val) / 64 % 8 = e.val / 64; omega
    | ⟨2, _⟩ => show ((b.val * 4096 + n.val) * 512 + e.val) / 512 % 4096 = n.val; omega
    | ⟨3, _⟩ => show ((b.val * 4096 + n.val) * 512 + e.val) % 64 = e.val % 64; omega
  rw [hi, headOut_eq]
  rfl

/-- The product of the merged heads with the output weights, plus the activations. -/
theorem outAt_eq (x0 : XArr) (x1 x2 x3 x4 : WArr) (b : Fin 2) (n : Fin 4096) (c : Fin 512) :
    val_main_v27 (F := Ideal) x0 x1 x2 x3 x4 (ix3 b n c)
      = Attn.outAt (Attn.proj x0 x1) (Attn.proj x0 x2) (Attn.proj x0 x3) x0 x4 b n c := by
  rw [val_main_v27_apply, val_main_v26_apply, Ideal.addf_def]
  unfold Attn.outAt
  refine congrArg (· + _) (Finset.sum_congr rfl fun k _ => ?_)
  have el : lidx_main_v26 (ix3 b n c) k = ix3 b n k :=
    funext fun a => Fin.ext (by match a with | ⟨0, _⟩ => rfl | ⟨1, _⟩ => rfl | ⟨2, _⟩ => rfl)
  have er : ridx_main_v26 (ix3 b n c) k = ix2 c k :=
    funext fun a => Fin.ext (by match a with | ⟨0, _⟩ => rfl | ⟨1, _⟩ => rfl)
  rw [el, er, merged_eq]

/-- The reference program's result is the specification. -/
theorem reference_eq_out (x0 : XArr) (x1 x2 x3 x4 : WArr) :
    val_main_v27 (F := Ideal) x0 x1 x2 x3 x4 = Attn.out x0 x1 x2 x3 x4 := by
  funext i
  obtain ⟨b, n, c, rfl⟩ : ∃ (b : Fin 2) (n : Fin 4096) (c : Fin 512), i = ix3 b n c := ⟨i 0, i 1, i 2, eq_ix3 i⟩
  exact outAt_eq x0 x1 x2 x3 x4 b n c

end Cert.ReferenceIdeal.RefValue

end
-- ==== Proof.lean ====
/-
  A multi-head self-attention layer with an output projection and a residual connection: the kernel program and its
  reference compute the same array on the extended reals.

  Input: activations `x` (2 × 4096 × 512) and four 512 × 512 weight matrices. With `Q = x·Wqᵀ`, `K = x·Wkᵀ`,
  `V = x·Wvᵀ`, each of the 8 heads (64 lanes each) scores every position against every position of the same batch,
  `s = (q · k) / 8`, turns each row of scores into the weights `exp(s − max s) / ∑ exp(s − max s)`, and outputs the
  weighted sum of the rows of `V`; the heads' outputs side by side are multiplied by `Woᵀ` and `x` is added
  (Proof/Spec.lean: `Cert.Attn.out`).

  The kernel program transposes the weights, computes `Q, K, V` in a first launch (tiles of 512 rows), and in a second
  launch (tiles of 256 query rows against the whole batch of keys and values) computes the heads one after the other on
  64-lane slices, collects them in a scratch tile, projects and adds the residual (Proof/EntryValue.lean: what the second
  launch finds in its arrays; Proof/AttnBody.lean, Proof/HeadValue.lean, Proof/AttnTile.lean: one tile; Proof/AttnGrid.lean,
  Proof/AttnArray.lean: the tiles cover the result; Proof/KernelRun.lean: the run). The reference reshapes to heads,
  transposes, and works on rank-4 arrays (Proof/RefValue.lean). At the ideal instance a change of float format is the
  identity and a matrix product is a plain finite sum, so both are `Cert.Attn.out` of the arguments index by index; the two
  sides are the same operations in the same order at every entry, and no law of arithmetic that needs finiteness is used.
  The idealization rewrote nothing in the kernel program, so there is nothing to preserve beyond the text itself.
-/
import proofs.«151363_j47270410060360_2_alg».proof.Defs
import proofs.«151363_j47270410060360_2_alg».proof.Proof.Gen.Kernel
import proofs.«151363_j47270410060360_2_alg».proof.Proof.Gen.Kernel.Skeleton
import proofs.«151363_j47270410060360_2_alg».proof.Proof.Gen.Kernel.Launch
import proofs.«151363_j47270410060360_2_alg».proof.Proof.Gen.Kernel.Points
import proofs.«151363_j47270410060360_2_alg».proof.Proof.Gen.Kernel.Frame
import proofs.«151363_j47270410060360_2_alg».proof.Proof.Gen.KernelIdeal
import proofs.«151363_j47270410060360_2_alg».proof.Proof.Gen.KernelIdeal.Skeleton
import proofs.«151363_j47270410060360_2_alg».proof.Proof.Gen.KernelIdeal.Launch
import proofs.«151363_j47270410060360_2_alg».proof.Proof.Gen.KernelIdeal.Points
import proofs.«151363_j47270410060360_2_alg».proof.Proof.Gen.KernelIdeal.Frame
import proofs.«151363_j47270410060360_2_alg».proof.Proof.Gen.ReferenceIdeal
import proofs.«151363_j47270410060360_2_alg».proof.Proof.Gen.ReferenceIdeal.Run
import proofs.«151363_j47270410060360_2_alg».proof.Proof.Gen.ReferenceIdeal.Read
import proofs.«151363_j47270410060360_2_alg».proof.Proof.Gen.Pre_finite_inputs
import proofs.«151363_j47270410060360_2_alg».proof.Proof.KernelRun
import proofs.«151363_j47270410060360_2_alg».proof.Proof.EntryValue
import proofs.«151363_j47270410060360_2_alg».proof.Proof.AttnArray
import proofs.«151363_j47270410060360_2_alg».proof.Proof.RefValue
import Idealize.ShloMosaic.Adequacy
import Idealize.ShloMosaic.Init

noncomputable section

namespace Cert.Proof

open Idealize.ShloMosaic Idealize.ShloMosaic.TcCoe Idealize.ShloMosaic.ValueIdx Idealize.SL.Sem

/-- After the kernel program's run the result array holds the attention function of the argument arrays: the last
    boundary's contents are what the second launch's tiles wrote back, that is the result function of the arrays the launch
    found, and those are the three projections, the transposed output weights and the activations. -/
theorem kernel_result (m : (ℓ : Loc Cert.KernelIdeal.nD Cert.KernelIdeal.τ Cert.KernelIdeal.sig) → Buf (Elt Ideal) ℓ) (ρ : Dev Cert.KernelIdeal.nD → PrngReg)
    (c : Dev Cert.KernelIdeal.nD) :
    Cert.KernelIdeal.Gen.W3 m ρ c (Proc.devRef .tc Cert.KernelIdeal.main_v9) = Cert.Attn.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) := by
  rw [Cert.KernelIdeal.RunValue.result_at_exit m ρ c, Cert.KernelIdeal.AttnArray.result_array (Cert.KernelIdeal.Gen.V2 m ρ) c,
    Cert.KernelIdeal.EntryValue.entry_q m ρ c, Cert.KernelIdeal.EntryValue.entry_k m ρ c, Cert.KernelIdeal.EntryValue.entry_v m ρ c,
    Cert.KernelIdeal.EntryValue.entry_wo m ρ c, Cert.KernelIdeal.EntryValue.entry_x m ρ c]
  funext i
  obtain ⟨b, n, e, rfl⟩ : ∃ (b : Fin 2) (n : Fin 4096) (e : Fin 512), i = ix3 b n e := ⟨i 0, i 1, i 2, eq_ix3 i⟩
  rfl

theorem frame_kernel : Cert.frame_Kernel := fun m ρ _ => Cert.Kernel.Gen.frame m ρ

theorem frame_kernel_ideal : Cert.frame_KernelIdeal := fun m ρ _ => Cert.KernelIdeal.Gen.frame m ρ

/-- The reference has no kernel launch: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Both idealized programs, from memories agreeing on the arguments, end with the attention function of the arguments
    in their result arrays. -/
theorem algebraic : Cert.algebraic_KernelIdeal_ReferenceIdeal := by
  intro m ρ m' ρ' _ hagree
  refine ⟨fun c => Cert.Attn.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · exact (θ_run Cert.KernelIdeal.defs _ _).mono (fun r h c => ⟨(h c).1.trans (kernel_result m ρ c), (h c).2⟩)
      (Cert.KernelIdeal.RunValue.run m ρ)
  · refine (θ_run Cert.ReferenceIdeal.defs _ _).mono (fun r h c => ⟨?_, (h c).2⟩) (Cert.ReferenceIdeal.Value.run (F := Ideal) m' ρ')
    rw [(h c).1, Cert.ReferenceIdeal.Read.val_main_v27_eq, Cert.ReferenceIdeal.RefValue.reference_eq_out,
      (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
